-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x8x192 : Shape := ⟨4, ![4096, 8, 8, 192]⟩
abbrev S192x192 : Shape := ⟨2, ![192, 192]⟩
abbrev S192 : Shape := ⟨1, ![192]⟩
abbrev S1x1x1 : Shape := ⟨3, ![1, 1, 1]⟩
abbrev S_ : Shape := ⟨0, ![]⟩

class Facts : Prop where
  bcast_S_S4096x8x8x192 : S_.BroadcastsInDim S4096x8x8x192 (![] : Fin 0 → Fin S4096x8x8x192.rank)
  reducesTo_S4096x8x8x192_S_d0_1_2_3 : S4096x8x8x192.ReducesTo [0, 1, 2, 3] S_
  h_S_ : 0 < S_.numel
  bcast_S_S192x192 : S_.BroadcastsInDim S192x192 (![] : Fin 0 → Fin S192x192.rank)
  reducesTo_S192x192_S_d0_1 : S192x192.ReducesTo [0, 1] S_
  bcast_S_S192 : S_.BroadcastsInDim S192 (![] : Fin 0 → Fin S192.rank)
  reducesTo_S192_S_d0 : S192.ReducesTo [0] S_
  bcast_S_S1x1x1 : S_.BroadcastsInDim S1x1x1 (![] : Fin 0 → Fin S1x1x1.rank)
  reducesTo_S1x1x1_S_d0_1_2 : S1x1x1.ReducesTo [0, 1, 2] S_

variable [Facts]

def fn_part2 {F : FTy → Type} [FloatOps F] (main_arg7 : FVec F S192x192 .f32) (main_arg8 : FVec F S192 .f32) (main_arg9 : FVec F S1x1x1 .f32) (main_v33 : IVec S_ 1) : IVec S_ 1 :=
  let main_v34 : FVec F S192x192 .f32 := Host.absf main_arg7
  let main_cst_12 : FVec F S_ .f32 := constant S_ .f32 0x7F800000#32
  let main_v35 : FVec F S192x192 .f32 := broadcastInDim S192x192 ![] bcast_S_S192x192 main_cst_12
  let main_v36 : IVec S192x192 1 := cmpf .olt main_v34 main_v35
  let main_c_13 : IVec S_ 1 := constantI S_ 1 1#1
  let main_v37 : IVec S_ 1 := (fun x v => Host.reduce IntOp.andi x v reducesTo_S192x192_S_d0_1 h_S_) main_v36 main_c_13
  let main_v38 : IVec S_ 1 := andi main_v33 main_v37
  let main_v39 : FVec F S192 .f32 := Host.absf main_arg8
  let main_cst_14 : FVec F S_ .f32 := constant S_ .f32 0x7F800000#32
  let main_v40 : FVec F S192 .f32 := broadcastInDim S192 ![] bcast_S_S192 main_cst_14
  let main_v41 : IVec S192 1 := cmpf .olt main_v39 main_v40
  let main_c_15 : IVec S_ 1 := constantI S_ 1 1#1
  let main_v42 : IVec S_ 1 := (fun x v => Host.reduce IntOp.andi x v reducesTo_S192_S_d0 h_S_) main_v41 main_c_15
  let main_v43 : IVec S_ 1 := andi main_v38 main_v42
  let main_v44 : FVec F S1x1x1 .f32 := Host.absf main_arg9
  let main_cst_16 : FVec F S_ .f32 := constant S_ .f32 0x7F800000#32
  let main_v45 : FVec F S1x1x1 .f32 := broadcastInDim S1x1x1 ![] bcast_S_S1x1x1 main_cst_16
  let main_v46 : IVec S1x1x1 1 := cmpf .olt main_v44 main_v45
  let main_c_17 : IVec S_ 1 := constantI S_ 1 1#1
  let main_v47 : IVec S_ 1 := (fun x v => Host.reduce IntOp.andi x v reducesTo_S1x1x1_S_d0_1_2 h_S_) main_v46 main_c_17
  let main_v48 : IVec S_ 1 := andi main_v43 main_v47
  main_v48

def fn_part1 {F : FTy → Type} [FloatOps F] (main_arg4 : FVec F S192 .f32) (main_arg5 : FVec F S192x192 .f32) (main_arg6 : FVec F S192 .f32) (main_arg7 : FVec F S192x192 .f32) (main_arg8 : FVec F S192 .f32) (main_arg9 : FVec F S1x1x1 .f32) (main_v13 : IVec S_ 1) (main_v16 : IVec S192x192 1) : IVec S_ 1 :=
  let main_c_5 : IVec S_ 1 := constantI S_ 1 1#1
  let main_v17 : IVec S_ 1 := (fun x v => Host.reduce IntOp.andi x v reducesTo_S192x192_S_d0_1 h_S_) main_v16 main_c_5
  let main_v18 : IVec S_ 1 := andi main_v13 main_v17
  let main_v19 : FVec F S192 .f32 := Host.absf main_arg4
  let main_cst_6 : FVec F S_ .f32 := constant S_ .f32 0x7F800000#32
  let main_v20 : FVec F S192 .f32 := broadcastInDim S192 ![] bcast_S_S192 main_cst_6
  let main_v21 : IVec S192 1 := cmpf .olt main_v19 main_v20
  let main_c_7 : IVec S_ 1 := constantI S_ 1 1#1
  let main_v22 : IVec S_ 1 := (fun x v => Host.reduce IntOp.andi x v reducesTo_S192_S_d0 h_S_) main_v21 main_c_7
  let main_v23 : IVec S_ 1 := andi main_v18 main_v22
  let main_v24 : FVec F S192x192 .f32 := Host.absf main_arg5
  let main_cst_8 : FVec F S_ .f32 := constant S_ .f32 0x7F800000#32
  let main_v25 : FVec F S192x192 .f32 := broadcastInDim S192x192 ![] bcast_S_S192x192 main_cst_8
  let main_v26 : IVec S192x192 1 := cmpf .olt main_v24 main_v25
  let main_c_9 : IVec S_ 1 := constantI S_ 1 1#1
  let main_v27 : IVec S_ 1 := (fun x v => Host.reduce IntOp.andi x v reducesTo_S192x192_S_d0_1 h_S_) main_v26 main_c_9
  let main_v28 : IVec S_ 1 := andi main_v23 main_v27
  let main_v29 : FVec F S192 .f32 := Host.absf main_arg6
  let main_cst_10 : FVec F S_ .f32 := constant S_ .f32 0x7F800000#32
  let main_v30 : FVec F S192 .f32 := broadcastInDim S192 ![] bcast_S_S192 main_cst_10
  let main_v31 : IVec S192 1 := cmpf .olt main_v29 main_v30
  let main_c_11 : IVec S_ 1 := constantI S_ 1 1#1
  let main_v32 : IVec S_ 1 := (fun x v => Host.reduce IntOp.andi x v reducesTo_S192_S_d0 h_S_) main_v31 main_c_11
  let main_v33 : IVec S_ 1 := andi main_v28 main_v32
  fn_part2 (F := F) main_arg7 main_arg8 main_arg9 main_v33

def fn {F : FTy → Type} [FloatOps F] (main_arg0 : FVec F S4096x8x8x192 .f32) (main_arg1 : FVec F S192x192 .f32) (main_arg2 : FVec F S192 .f32) (main_arg3 : FVec F S192x192 .f32) (main_arg4 : FVec F S192 .f32) (main_arg5 : FVec F S192x192 .f32) (main_arg6 : FVec F S192 .f32) (main_arg7 : FVec F S192x192 .f32) (main_arg8 : FVec F S192 .f32) (main_arg9 : FVec F S1x1x1 .f32) : IVec S_ 1 :=
  let main_v0 : FVec F S4096x8x8x192 .f32 := Host.absf main_arg0
  let main_cst : FVec F S_ .f32 := constant S_ .f32 0x7F800000#32
  let main_v1 : FVec F S4096x8x8x192 .f32 := broadcastInDim S4096x8x8x192 ![] bcast_S_S4096x8x8x192 main_cst
  let main_v2 : IVec S4096x8x8x192 1 := cmpf .olt main_v0 main_v1
  let main_c : IVec S_ 1 := constantI S_ 1 1#1
  let main_v3 : IVec S_ 1 := (fun x v => Host.reduce IntOp.andi x v reducesTo_S4096x8x8x192_S_d0_1_2_3 h_S_) main_v2 main_c
  let main_v4 : FVec F S192x192 .f32 := Host.absf main_arg1
  let main_cst_0 : FVec F S_ .f32 := constant S_ .f32 0x7F800000#32
  let main_v5 : FVec F S192x192 .f32 := broadcastInDim S192x192 ![] bcast_S_S192x192 main_cst_0
  let main_v6 : IVec S192x192 1 := cmpf .olt main_v4 main_v5
  let main_c_1 : IVec S_ 1 := constantI S_ 1 1#1
  let main_v7 : IVec S_ 1 := (fun x v => Host.reduce IntOp.andi x v reducesTo_S192x192_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S192x192 .f32 := Host.absf main_arg3
  let main_cst_4 : FVec F S_ .f32 := constant S_ .f32 0x7F800000#32
  let main_v15 : FVec F S192x192 .f32 := broadcastInDim S192x192 ![] bcast_S_S192x192 main_cst_4
  let main_v16 : IVec S192x192 1 := cmpf .olt main_v14 main_v15
  fn_part1 (F := F) main_arg4 main_arg5 main_arg6 main_arg7 main_arg8 main_arg9 main_v13 main_v16
-- ==== Kernel.lean ====
abbrev S4096x8x8x192 : Shape := ⟨4, ![4096, 8, 8, 192]⟩
abbrev S192x192 : Shape := ⟨2, ![192, 192]⟩
abbrev S192 : Shape := ⟨1, ![192]⟩
abbrev S1x1x1 : Shape := ⟨3, ![1, 1, 1]⟩
abbrev S4096x64x192 : Shape := ⟨3, ![4096, 64, 192]⟩
abbrev S_ : Shape := ⟨0, ![]⟩
abbrev S192x256 : Shape := ⟨2, ![192, 256]⟩
abbrev S1 : Shape := ⟨1, ![1]⟩
abbrev S192x768 : Shape := ⟨2, ![192, 768]⟩
abbrev S256 : Shape := ⟨1, ![256]⟩
abbrev S768 : Shape := ⟨1, ![768]⟩
abbrev S1x768 : Shape := ⟨2, ![1, 768]⟩
abbrev S1x192 : Shape := ⟨2, ![1, 192]⟩
abbrev S1x1 : Shape := ⟨2, ![1, 1]⟩
abbrev S64x64x192 : Shape := ⟨3, ![64, 64, 192]⟩
abbrev S4096x192 : Shape := ⟨2, ![4096, 192]⟩
abbrev S4096x768 : Shape := ⟨2, ![4096, 768]⟩
abbrev S64x64x64 : Shape := ⟨3, ![64, 64, 64]⟩
abbrev S64x64 : Shape := ⟨2, ![64, 64]⟩
abbrev S64x64x1 : Shape := ⟨3, ![64, 64, 1]⟩

abbrev nBuf : Space → Nat
  | .hbm => 52
  | .vmem => 9
  | .smem => 0
  | _ => 0

abbrev bufTy : (tb : Table) → Fin (tcTables nBuf tb) → BufTy
  | .hbm, ⟨0, _⟩ => ⟨S4096x8x8x192, .f32⟩
  | .hbm, ⟨1, _⟩ => ⟨S192x192, .f32⟩
  | .hbm, ⟨2, _⟩ => ⟨S192, .f32⟩
  | .hbm, ⟨3, _⟩ => ⟨S192x192, .f32⟩
  | .hbm, ⟨4, _⟩ => ⟨S192, .f32⟩
  | .hbm, ⟨5, _⟩ => ⟨S192x192, .f32⟩
  | .hbm, ⟨6, _⟩ => ⟨S192, .f32⟩
  | .hbm, ⟨7, _⟩ => ⟨S192x192, .f32⟩
  | .hbm, ⟨8, _⟩ => ⟨S192, .f32⟩
  | .hbm, ⟨9, _⟩ => ⟨S1x1x1, .f32⟩
  | .hbm, ⟨10, _⟩ => ⟨S4096x64x192, .f32⟩
  | .hbm, ⟨11, _⟩ => ⟨S_, .f32⟩
  | .hbm, ⟨12, _⟩ => ⟨S192x256, .f32⟩
  | .hbm, ⟨13, _⟩ => ⟨S_, .i32⟩
  | .hbm, ⟨14, _⟩ => ⟨S1, .i32⟩
  | .hbm, ⟨15, _⟩ => ⟨S192x256, .f32⟩
  | .hbm, ⟨16, _⟩ => ⟨S192x256, .bf16⟩
  | .hbm, ⟨17, _⟩ => ⟨S_, .f32⟩
  | .hbm, ⟨18, _⟩ => ⟨S192x256, .f32⟩
  | .hbm, ⟨19, _⟩ => ⟨S_, .i32⟩
  | .hbm, ⟨20, _⟩ => ⟨S1, .i32⟩
  | .hbm, ⟨21, _⟩ => ⟨S192x256, .f32⟩
  | .hbm, ⟨22, _⟩ => ⟨S192x256, .bf16⟩
  | .hbm, ⟨23, _⟩ => ⟨S_, .f32⟩
  | .hbm, ⟨24, _⟩ => ⟨S192x256, .f32⟩
  | .hbm, ⟨25, _⟩ => ⟨S_, .i32⟩
  | .hbm, ⟨26, _⟩ => ⟨S1, .i32⟩
  | .hbm, ⟨27, _⟩ => ⟨S192x256, .f32⟩
  | .hbm, ⟨28, _⟩ => ⟨S192x256, .bf16⟩
  | .hbm, ⟨29, _⟩ => ⟨S192x768, .bf16⟩
  | .hbm, ⟨30, _⟩ => ⟨S_, .f32⟩
  | .hbm, ⟨31, _⟩ => ⟨S256, .f32⟩
  | .hbm, ⟨32, _⟩ => ⟨S_, .i32⟩
  | .hbm, ⟨33, _⟩ => ⟨S1, .i32⟩
  | .hbm, ⟨34, _⟩ => ⟨S256, .f32⟩
  | .hbm, ⟨35, _⟩ => ⟨S_, .f32⟩
  | .hbm, ⟨36, _⟩ => ⟨S256, .f32⟩
  | .hbm, ⟨37, _⟩ => ⟨S_, .i32⟩
  | .hbm, ⟨38, _⟩ => ⟨S1, .i32⟩
  | .hbm, ⟨39, _⟩ => ⟨S256, .f32⟩
  | .hbm, ⟨40, _⟩ => ⟨S_, .f32⟩
  | .hbm, ⟨41, _⟩ => ⟨S256, .f32⟩
  | .hbm, ⟨42, _⟩ => ⟨S_, .i32⟩
  | .hbm, ⟨43, _⟩ => ⟨S1, .i32⟩
  | .hbm, ⟨44, _⟩ => ⟨S256, .f32⟩
  | .hbm, ⟨45, _⟩ => ⟨S768, .f32⟩
  | .hbm, ⟨46, _⟩ => ⟨S1x768, .f32⟩
  | .hbm, ⟨47, _⟩ => ⟨S192x192, .bf16⟩
  | .hbm, ⟨48, _⟩ => ⟨S1x192, .f32⟩
  | .hbm, ⟨49, _⟩ => ⟨S1x1, .f32⟩
  | .hbm, ⟨50, _⟩ => ⟨S4096x64x192, .f32⟩
  | .hbm, ⟨51, _⟩ => ⟨S4096x8x8x192, .f32⟩
  | .local _ .vmem, ⟨0, _⟩ => ⟨S64x64x192, .f32⟩
  | .local _ .vmem, ⟨1, _⟩ => ⟨S64x64x192, .f32⟩
  | .local _ .vmem, ⟨2, _⟩ => ⟨S192x768, .bf16⟩
  | .local _ .vmem, ⟨3, _⟩ => ⟨S1x768, .f32⟩
  | .local _ .vmem, ⟨4, _⟩ => ⟨S192x192, .bf16⟩
  | .local _ .vmem, ⟨5, _⟩ => ⟨S1x192, .f32⟩
  | .local _ .vmem, ⟨6, _⟩ => ⟨S1x1, .f32⟩
  | .local _ .vmem, ⟨7, _⟩ => ⟨S64x64x192, .f32⟩
  | .local _ .vmem, ⟨8, _⟩ => ⟨S64x64x192, .f32⟩
  | _, _ => ⟨S4096x8x8x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_c : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_c_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_2 : Ref sig .tc := ⟨.hbm, 23, rfl⟩
abbrev main_v9 : Ref sig .tc := ⟨.hbm, 24, rfl⟩
abbrev main_c_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_c_5 : Ref sig .tc := ⟨.hbm, 32, rfl⟩
abbrev main_v15 : Ref sig .tc := ⟨.hbm, 33, rfl⟩
abbrev main_v16 : Ref sig .tc := ⟨.hbm, 34, rfl⟩
abbrev main_cst_6 : Ref sig .tc := ⟨.hbm, 35, rfl⟩
abbrev main_v17 : Ref sig .tc := ⟨.hbm, 36, rfl⟩
abbrev main_c_7 : Ref sig .tc := ⟨.hbm, 37, rfl⟩
abbrev main_v18 : Ref sig .tc := ⟨.hbm, 38, rfl⟩
abbrev main_v19 : Ref sig .tc := ⟨.hbm, 39, rfl⟩
abbrev main_cst_8 : Ref sig .tc := ⟨.hbm, 40, rfl⟩
abbrev main_v20 : Ref sig .tc := ⟨.hbm, 41, rfl⟩
abbrev main_c_9 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x64x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S192x192 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S64x64x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S4096x8x8x192_S4096x64x192 : S4096x8x8x192.ShapeCasts S4096x64x192
  bcast_S_S192x256 : S_.BroadcastsInDim S192x256 (![] : Fin 0 → Fin S192x256.rank)
  bcast_S_S1 : S_.BroadcastsInDim S1 (![] : Fin 0 → Fin S1.rank)
  bitsLt_bf16_f32 : FTy.bits .bf16 < FTy.bits .f32
  concatenates_S192x256_S192x256_S192x256_S192x768_d1 : Shape.Concatenates [S192x256, S192x256, S192x256] S192x768 1
  bcast_S_S256 : S_.BroadcastsInDim S256 (![] : Fin 0 → Fin S256.rank)
  concatenates_S256_S256_S256_S768_d0 : Shape.Concatenates [S256, S256, S256] S768 0
  shapeCasts_S768_S1x768 : S768.ShapeCasts S1x768
  shapeCasts_S192_S1x192 : S192.ShapeCasts S1x192
  shapeCasts_S1x1x1_S1x1 : S1x1x1.ShapeCasts S1x1
  inb_S64x64x192_S64x64x192_0_0_0 : ∀ a, (![0, 0, 0] : Fin 3 → Nat) a + S64x64x192.size a ≤ S64x64x192.size a
  h_S64x64x192 : 0 < S64x64x192.numel
  shapeCasts_S64x64x192_S64x64x192 : S64x64x192.ShapeCasts S64x64x192
  shapeCasts_S64x64x192_S4096x192 : S64x64x192.ShapeCasts S4096x192
  inb_S192x768_S192x768_0_0 : ∀ a, (![0, 0] : Fin 2 → Nat) a + S192x768.size a ≤ S192x768.size a
  h_S192x768 : 0 < S192x768.numel
  shapeCasts_S192x768_S192x768 : S192x768.ShapeCasts S192x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S4096x768 : S1x768.Broadcasts S4096x768
  slices_S4096x768_o0_0_S4096x192 : S4096x768.Slices ![0, 0] S4096x192
  slices_S4096x768_o0_256_S4096x192 : S4096x768.Slices ![0, 256] S4096x192
  slices_S4096x768_o0_512_S4096x192 : S4096x768.Slices ![0, 512] S4096x192
  shapeCasts_S4096x192_S64x64x192 : S4096x192.ShapeCasts S64x64x192
  reduces_S64x64x64_S64x64 : S64x64x64.Reduces [2] S64x64
  shapeCasts_S64x64_S64x64x1 : S64x64.ShapeCasts S64x64x1
  broadcasts_S64x64x1_S64x64x64 : S64x64x1.Broadcasts S64x64x64
  inb_S192x192_S192x192_0_0 : ∀ a, (![0, 0] : Fin 2 → Nat) a + S192x192.size a ≤ S192x192.size a
  h_S192x192 : 0 < S192x192.numel
  shapeCasts_S192x192_S192x192 : S192x192.ShapeCasts S192x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S4096x192 : S1x192.Broadcasts S4096x192
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  shapeCasts_S4096x64x192_S4096x8x8x192 : S4096x64x192.ShapeCasts S4096x8x8x192
  scatter_S192x256_S1_S192x192_01_n_1_0_wf : ScatterDims.WF S192x256 S1 S192x192 [0, 1] [] [1] 0
  scatter_S256_S1_S192_0_n_0_0_wf : ScatterDims.WF S256 S1 S192 [0] [] [0] 0
  dot_S4096x192_S192x768_S4096x768_1_0_0_1_n_n_wf : DotDims.WF S4096x192 S192x768 S4096x768 [1] [0] [0] [1] [] []
  dot_S64x64x192_S64x64x192_S64x64x64_2_2_1_1_0_0_wf : DotDims.WF S64x64x192 S64x64x192 S64x64x64 [2] [2] [1] [1] [0] [0]
  dot_S64x64x64_S64x64x192_S64x64x192_2_1_1_2_0_0_wf : DotDims.WF S64x64x64 S64x64x192 S64x64x192 [2] [1] [1] [2] [0] [0]
  dot_S4096x192_S192x192_S4096x192_1_0_0_1_n_n_wf : DotDims.WF S4096x192 S192x192 S4096x192 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x64x192.size a ≤ S4096x64x192.size a
  hwx0_0 : ∀ i : grid0.Coords, EltTy.bits .f32 = 32 ∨ (Rect.block (s := S4096x64x192) S64x64x192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x768.size a ≤ S192x768.size a
  hwx0_1 : ∀ i : grid0.Coords, EltTy.bits .bf16 = 32 ∨ (Rect.block (s := S192x768) S192x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S192x192.size a ≤ S192x192.size a
  hwx0_3 : ∀ i : grid0.Coords, EltTy.bits .bf16 = 32 ∨ (Rect.block (s := S192x192) S192x192.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x192.size a ≤ S1x192.size a
  hwx0_4 : ∀ i : grid0.Coords, EltTy.bits .f32 = 32 ∨ (Rect.block (s := S1x192) S1x192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S64x64x192.size a ≤ S4096x64x192.size a
  hwx0_6 : ∀ i : grid0.Coords, EltTy.bits .f32 = 32 ∨ (Rect.block (s := S4096x64x192) S64x64x192.size (cc0_transform_6 i) (hinb0_6 i)).WholeWords (EltTy.packing .f32)

variable [Facts₀]

def scatter_S192x256_S1_S192x192_01_n_1_0 : ScatterDims S192x256 S1 S192x192 where
  updateWindowDims := [0, 1]
  insertedWindowDims := []
  scatterDimsToOperandDims := [1]
  indexVectorDim := 0
  wf := scatter_S192x256_S1_S192x192_01_n_1_0_wf
def scatter_S256_S1_S192_0_n_0_0 : ScatterDims S256 S1 S192 where
  updateWindowDims := [0]
  insertedWindowDims := []
  scatterDimsToOperandDims := [0]
  indexVectorDim := 0
  wf := scatter_S256_S1_S192_0_n_0_0_wf
def dot_S4096x192_S192x768_S4096x768_1_0_0_1_n_n : DotDims S4096x192 S192x768 S4096x768 where
  lhsContracting := [1]
  rhsContracting := [0]
  lhsNonContracting := [0]
  rhsNonContracting := [1]
  lhsBatch := []
  rhsBatch := []
  wf := dot_S4096x192_S192x768_S4096x768_1_0_0_1_n_n_wf
def dot_S64x64x192_S64x64x192_S64x64x64_2_2_1_1_0_0 : DotDims S64x64x192 S64x64x192 S64x64x64 where
  lhsContracting := [2]
  rhsContracting := [2]
  lhsNonContracting := [1]
  rhsNonContracting := [1]
  lhsBatch := [0]
  rhsBatch := [0]
  wf := dot_S64x64x192_S64x64x192_S64x64x64_2_2_1_1_0_0_wf
def dot_S64x64x64_S64x64x192_S64x64x192_2_1_1_2_0_0 : DotDims S64x64x64 S64x64x192 S64x64x192 where
  lhsContracting := [2]
  rhsContracting := [1]
  lhsNonContracting := [1]
  rhsNonContracting := [2]
  lhsBatch := [0]
  rhsBatch := [0]
  wf := dot_S64x64x64_S64x64x192_S64x64x192_2_1_1_2_0_0_wf
def dot_S4096x192_S192x192_S4096x192_1_0_0_1_n_n : DotDims S4096x192 S192x192 S4096x192 where
  lhsContracting := [1]
  rhsContracting := [0]
  lhsNonContracting := [0]
  rhsNonContracting := [1]
  lhsBatch := []
  rhsBatch := []
  wf := dot_S4096x192_S192x192_S4096x192_1_0_0_1_n_n_wf

abbrev win0_0 : Pipeline.Window sig grid0 :=
  Pipeline.Window.ofSpec (Memref.whole main_v0) S64x64x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S192x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v24) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S192x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S1x192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v28) S64x64x192.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x8x8x192 : Shape := ⟨4, ![4096, 8, 8, 192]⟩
abbrev S192x192 : Shape := ⟨2, ![192, 192]⟩
abbrev S192 : Shape := ⟨1, ![192]⟩
abbrev S1x1x1 : Shape := ⟨3, ![1, 1, 1]⟩
abbrev S1x1x1x192 : Shape := ⟨4, ![1, 1, 1, 192]⟩
abbrev S4096x64x192 : Shape := ⟨3, ![4096, 64, 192]⟩
abbrev S4096x192x8x8 : Shape := ⟨4, ![4096, 192, 8, 8]⟩
abbrev S4096x192x64 : Shape := ⟨3, ![4096, 192, 64]⟩
abbrev S4096x64x64 : Shape := ⟨3, ![4096, 64, 64]⟩
abbrev S_ : Shape := ⟨0, ![]⟩
abbrev S4096x64 : Shape := ⟨2, ![4096, 64]⟩
abbrev S4096x64x1 : Shape := ⟨3, ![4096, 64, 1]⟩
abbrev S1x1x1x1 : Shape := ⟨4, ![1, 1, 1, 1]⟩

abbrev nBuf : Space → Nat
  | .hbm => 51
  | .vmem => 0
  | .smem => 0
  | _ => 0

abbrev bufTy : (tb : Table) → Fin (tcTables nBuf tb) → BufTy
  | .hbm, ⟨0, _⟩ => ⟨S4096x8x8x192, .f32⟩
  | .hbm, ⟨1, _⟩ => ⟨S192x192, .f32⟩
  | .hbm, ⟨2, _⟩ => ⟨S192, .f32⟩
  | .hbm, ⟨3, _⟩ => ⟨S192x192, .f32⟩
  | .hbm, ⟨4, _⟩ => ⟨S192, .f32⟩
  | .hbm, ⟨5, _⟩ => ⟨S192x192, .f32⟩
  | .hbm, ⟨6, _⟩ => ⟨S192, .f32⟩
  | .hbm, ⟨7, _⟩ => ⟨S192x192, .f32⟩
  | .hbm, ⟨8, _⟩ => ⟨S192, .f32⟩
  | .hbm, ⟨9, _⟩ => ⟨S1x1x1, .f32⟩
  | .hbm, ⟨10, _⟩ => ⟨S4096x8x8x192, .f32⟩
  | .hbm, ⟨11, _⟩ => ⟨S1x1x1x192, .f32⟩
  | .hbm, ⟨12, _⟩ => ⟨S4096x8x8x192, .f32⟩
  | .hbm, ⟨13, _⟩ => ⟨S4096x8x8x192, .f32⟩
  | .hbm, ⟨14, _⟩ => ⟨S4096x64x192, .f32⟩
  | .hbm, ⟨15, _⟩ => ⟨S4096x8x8x192, .f32⟩
  | .hbm, ⟨16, _⟩ => ⟨S1x1x1x192, .f32⟩
  | .hbm, ⟨17, _⟩ => ⟨S4096x8x8x192, .f32⟩
  | .hbm, ⟨18, _⟩ => ⟨S4096x8x8x192, .f32⟩
  | .hbm, ⟨19, _⟩ => ⟨S4096x192x8x8, .f32⟩
  | .hbm, ⟨20, _⟩ => ⟨S4096x192x64, .f32⟩
  | .hbm, ⟨21, _⟩ => ⟨S4096x64x64, .f32⟩
  | .hbm, ⟨22, _⟩ => ⟨S_, .f32⟩
  | .hbm, ⟨23, _⟩ => ⟨S4096x64, .f32⟩
  | .hbm, ⟨24, _⟩ => ⟨S_, .f32⟩
  | .hbm, ⟨25, _⟩ => ⟨S4096x64, .f32⟩
  | .hbm, ⟨26, _⟩ => ⟨S4096x64, .f32⟩
  | .hbm, ⟨27, _⟩ => ⟨S4096x64x1, .f32⟩
  | .hbm, ⟨28, _⟩ => ⟨S4096x64x64, .f32⟩
  | .hbm, ⟨29, _⟩ => ⟨S4096x64x64, .f32⟩
  | .hbm, ⟨30, _⟩ => ⟨S4096x64x64, .f32⟩
  | .hbm, ⟨31, _⟩ => ⟨S_, .f32⟩
  | .hbm, ⟨32, _⟩ => ⟨S4096x64, .f32⟩
  | .hbm, ⟨33, _⟩ => ⟨S4096x64x1, .f32⟩
  | .hbm, ⟨34, _⟩ => ⟨S4096x64x64, .f32⟩
  | .hbm, ⟨35, _⟩ => ⟨S4096x64x64, .f32⟩
  | .hbm, ⟨36, _⟩ => ⟨S4096x8x8x192, .f32⟩
  | .hbm, ⟨37, _⟩ => ⟨S1x1x1x192, .f32⟩
  | .hbm, ⟨38, _⟩ => ⟨S4096x8x8x192, .f32⟩
  | .hbm, ⟨39, _⟩ => ⟨S4096x8x8x192, .f32⟩
  | .hbm, ⟨40, _⟩ => ⟨S4096x64x192, .f32⟩
  | .hbm, ⟨41, _⟩ => ⟨S4096x64x192, .f32⟩
  | .hbm, ⟨42, _⟩ => ⟨S4096x8x8x192, .f32⟩
  | .hbm, ⟨43, _⟩ => ⟨S4096x8x8x192, .f32⟩
  | .hbm, ⟨44, _⟩ => ⟨S1x1x1x192, .f32⟩
  | .hbm, ⟨45, _⟩ => ⟨S4096x8x8x192, .f32⟩
  | .hbm, ⟨46, _⟩ => ⟨S4096x8x8x192, .f32⟩
  | .hbm, ⟨47, _⟩ => ⟨S1x1x1x1, .f32⟩
  | .hbm, ⟨48, _⟩ => ⟨S4096x8x8x192, .f32⟩
  | .hbm, ⟨49, _⟩ => ⟨S4096x8x8x192, .f32⟩
  | .hbm, ⟨50, _⟩ => ⟨S4096x8x8x192, .f32⟩
  | _, _ => ⟨S4096x8x8x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_cst_0 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩

abbrev nD : Nat := 1
abbrev τ : Topo := Topo.v7x

variable {F : FTy → Type} [FloatOps F]

class Facts₀ : Prop where
  bcast_S192_S1x1x1x192_3 : S192.BroadcastsInDim S1x1x1x192 (![3] : Fin 1 → Fin S1x1x1x192.rank)
  bcast_S1x1x1x192_S4096x8x8x192_0_1_2_3 : S1x1x1x192.BroadcastsInDim S4096x8x8x192 (![0, 1, 2, 3] : Fin 4 → Fin S4096x8x8x192.rank)
  shapeCasts_S4096x8x8x192_S4096x64x192 : S4096x8x8x192.ShapeCasts S4096x64x192
  transposes_S4096x8x8x192_S4096x192x8x8_0_3_1_2 : S4096x8x8x192.Transposes [0, 3, 1, 2] S4096x192x8x8
  shapeCasts_S4096x192x8x8_S4096x192x64 : S4096x192x8x8.ShapeCasts S4096x192x64
  reducesTo_S4096x64x64_S4096x64_d2 : S4096x64x64.ReducesTo [2] S4096x64
  h_S_ : 0 < S_.numel
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S4096x64x1_S4096x64x64_0_1_2 : S4096x64x1.BroadcastsInDim S4096x64x64 (![0, 1, 2] : Fin 3 → Fin S4096x64x64.rank)
  shapeCasts_S4096x64x192_S4096x8x8x192 : S4096x64x192.ShapeCasts S4096x8x8x192
  bcast_S1x1x1_S1x1x1x1_1_2_3 : S1x1x1.BroadcastsInDim S1x1x1x1 (![1, 2, 3] : Fin 3 → Fin S1x1x1x1.rank)
  bcast_S1x1x1x1_S4096x8x8x192_0_1_2_3 : S1x1x1x1.BroadcastsInDim S4096x8x8x192 (![0, 1, 2, 3] : Fin 4 → Fin S4096x8x8x192.rank)
  dot_S4096x8x8x192_S192x192_S4096x8x8x192_3_0_012_1_n_n_wf : DotDims.WF S4096x8x8x192 S192x192 S4096x8x8x192 [3] [0] [0, 1, 2] [1] [] []
  dot_S4096x64x192_S4096x192x64_S4096x64x64_2_1_1_2_0_0_wf : DotDims.WF S4096x64x192 S4096x192x64 S4096x64x64 [2] [1] [1] [2] [0] [0]
  dot_S4096x64x64_S4096x64x192_S4096x64x192_2_1_1_2_0_0_wf : DotDims.WF S4096x64x64 S4096x64x192 S4096x64x192 [2] [1] [1] [2] [0] [0]

variable [Facts₀]

def dot_S4096x8x8x192_S192x192_S4096x8x8x192_3_0_012_1_n_n : DotDims S4096x8x8x192 S192x192 S4096x8x8x192 where
  lhsContracting := [3]
  rhsContracting := [0]
  lhsNonContracting := [0, 1, 2]
  rhsNonContracting := [1]
  lhsBatch := []
  rhsBatch := []
  wf := dot_S4096x8x8x192_S192x192_S4096x8x8x192_3_0_012_1_n_n_wf
def dot_S4096x64x192_S4096x192x64_S4096x64x64_2_1_1_2_0_0 : DotDims S4096x64x192 S4096x192x64 S4096x64x64 where
  lhsContracting := [2]
  rhsContracting := [1]
  lhsNonContracting := [1]
  rhsNonContracting := [2]
  lhsBatch := [0]
  rhsBatch := [0]
  wf := dot_S4096x64x192_S4096x192x64_S4096x64x64_2_1_1_2_0_0_wf
def dot_S4096x64x64_S4096x64x192_S4096x64x192_2_1_1_2_0_0 : DotDims S4096x64x64 S4096x64x192 S4096x64x192 where
  lhsContracting := [2]
  rhsContracting := [1]
  lhsNonContracting := [1]
  rhsNonContracting := [2]
  lhsBatch := [0]
  rhsBatch := [0]
  wf := dot_S4096x64x64_S4096x64x192_S4096x64x192_2_1_1_2_0_0_wf

class Facts : Prop extends Facts₀ where

variable [Facts]
-- ==== Proof.BitsAround.lean ====
/-
  The run of the whole program around its one launch, for any float interpretation.

  The program is forty host lines (reshapes, the zero-padded copies of the three projection matrices and biases
  and their concatenations, a format change of the output matrix), the launch over 64 grid points, and one host
  reshape of the result. None of the host lines writes an argument, so the launch finds the arguments as given and
  the last line leaves them so.

  At a grid point the body reads the point's block of 64 images whole, the fused weight, the fused bias row, the
  output matrix, its bias row and the scale, each whole, and stores one whole block of the result: the body's
  arithmetic (the generated payloads) applied to what it read. The six inputs are found at their blocks at every
  point: the image block is fetched at each point, the other five once, at the first point, and their block index
  never moves. The result block is written back at every point.

  From this: every execution of the program terminates without a fault; the result array ends as the blocks the
  points wrote back; every other array ends as the host lines leave it; in particular the ten arguments end as
  given.
-/
import proofs.«144008_j48438641164586_2_alg».proof.Proof.Gen.Kernel.Launch
import proofs.«144008_j48438641164586_2_alg».proof.Proof.Gen.Kernel.Skeleton
import proofs.«144008_j48438641164586_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers' contents when the launch is entered: the memory after the forty host lines before it. -/
abbrev V0 (c : Dev nD) : Valuation τ sig (Elt F) := StableHlo.after (List.flatten [hostOps0]) (fun b => m (c, b))
/-- The same, read at a buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, then the last host line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's arrays (it writes the reshaped result, a buffer of its own). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 1 ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 2 ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 3 ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 4 ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 5 ends as given. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 6 ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 7 ends as given. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 8 ends as given. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 9 ends as given. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The operands' blocks -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0's current staging buffer holds its block at every grid point, fetched there or not (where it
    is not fetched its block index has not moved), for any proof data over the launch-time arrays whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1's current staging buffer holds its block at every grid point, fetched there or not (where it
    is not fetched its block index has not moved), for any proof data over the launch-time arrays whose body leaves
    the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2's current staging buffer holds its block at every grid point, fetched there or not (where it
    is not fetched its block index has not moved), for any proof data over the launch-time arrays whose body leaves
    the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3's current staging buffer holds its block at every grid point, fetched there or not (where it
    is not fetched its block index has not moved), for any proof data over the launch-time arrays whose body leaves
    the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4's current staging buffer holds its block at every grid point, fetched there or not (where it
    is not fetched its block index has not moved), for any proof data over the launch-time arrays whose body leaves
    the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5's current staging buffer holds its block at every grid point, fetched there or not (where it
    is not fetched its block index has not moved), for any proof data over the launch-time arrays whose body leaves
    the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as given -/

/-- From a run whose end state has every array the launch does not stage as the last host line leaves it: the ten
    arguments end as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body -/

/-- The whole of a [64, 64, 192] buffer, of the fused weight, of the fused bias row, of the output matrix, of its
    bias row, of the scale: the rectangles the body reads and stores through. -/
abbrev rX : Rect S64x64x192 := Rect.unit (s := S64x64x192) ![0, 0, 0] S64x64x192.size inb_S64x64x192_S64x64x192_0_0_0
abbrev rW : Rect S192x768 := Rect.unit (s := S192x768) ![0, 0] S192x768.size inb_S192x768_S192x768_0_0
abbrev rB : Rect S1x768 := Rect.unit (s := S1x768) ![0, 0] S1x768.size inb_S1x768_S1x768_0_0
abbrev rWo : Rect S192x192 := Rect.unit (s := S192x192) ![0, 0] S192x192.size inb_S192x192_S192x192_0_0
abbrev rBo : Rect S1x192 := Rect.unit (s := S1x192) ![0, 0] S1x192.size inb_S1x192_S1x192_0_0
abbrev rG : Rect S1x1 := Rect.unit (s := S1x1) ![0, 0] S1x1.size inb_S1x1_S1x1_0_0

/-- What the body leaves in the result's staging buffer, from the six input blocks: its one store, of the whole
    buffer, of the body's arithmetic on what it loaded. -/
def outBlk (x0 : Vec F S64x64x192 .f32) (x1 : Vec F S192x768 .bf16) (x2 : Vec F S1x768 .f32) (x3 : Vec F S192x192 .bf16)
    (x4 : Vec F S1x192 .f32) (x5 : Vec F S1x1 .f32) : Vec F S64x64x192 .f32 :=
  View.canon [⟨rX, k0_pay1 (k0_pay2 (View.ld x0 rX) (View.ld x1 rW) (View.ld x2 rB) (View.ld x3 rWo)) (k0_pay3 (View.ld x4 rBo)) (View.ld x5 rG) (View.ld x0 rX)⟩]

/-- The one store covers the buffer. -/
theorem cover_out (p0 : Vec F S64x64x192 .f32) (y : S64x64x192.Idx) :
    ∃ pc ∈ ([⟨rX, p0⟩] : List (View.Piece (Elt F) S64x64x192 .f32)), y ∈ pc.1.set :=
  View.cover_of_tiled [⟨rX, p0⟩] S64x64x192.size (by rfl) y

set_option maxHeartbeats 1000000 in
/-- The body on whole staging buffers, the inputs' at contents `x0 … x5` and the result's at anything, runs to the
    end leaving the inputs' as they were and the result's at `outBlk` of them. -/
theorem sound_kernel (c : Dev nD) (E : Set ℕ) (i : grid0.Coords)
    (arg1 : Memref sig .tc .vmem S64x64x192 .f32) (harg1 : arg1.IsWhole) (arg2 : Memref sig .tc .vmem S192x768 .bf16) (harg2 : arg2.IsWhole)
    (arg3 : Memref sig .tc .vmem S1x768 .f32) (harg3 : arg3.IsWhole) (arg4 : Memref sig .tc .vmem S192x192 .bf16) (harg4 : arg4.IsWhole)
    (arg5 : Memref sig .tc .vmem S1x192 .f32) (harg5 : arg5.IsWhole) (arg6 : Memref sig .tc .vmem S1x1 .f32) (harg6 : arg6.IsWhole)
    (arg7 : Memref sig .tc .vmem S64x64x192 .f32) (harg7 : arg7.IsWhole)
    (x0 : Vec F S64x64x192 .f32) (x1 : Vec F S192x768 .bf16) (x2 : Vec F S1x768 .f32) (x3 : Vec F S192x192 .bf16)
    (x4 : Vec F S1x192 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

/-! ## The launch's proof data -/

/-- On core `c`: the arrays as the launch finds them; after the body at point `t` each input's buffer still at
    its block and the result's at `outBlk` of the point's input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a grid point -/

/-- What the body is called with at point `t`, the seven staging buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every execution of the program terminates, and at the end each array of the
    launch holds what the blocks written back make of it, every other buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its ten arguments end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.Kernel.Around

end
-- ==== Proof.IdealAround.lean ====
/-
  The run of the whole program around its one launch, for any float interpretation.

  The program is forty host lines (reshapes, the zero-padded copies of the three projection matrices and biases
  and their concatenations, a format change of the output matrix), the launch over 64 grid points, and one host
  reshape of the result. None of the host lines writes an argument, so the launch finds the arguments as given and
  the last line leaves them so.

  At a grid point the body reads the point's block of 64 images whole, the fused weight, the fused bias row, the
  output matrix, its bias row and the scale, each whole, and stores one whole block of the result: the body's
  arithmetic (the generated payloads) applied to what it read. The six inputs are found at their blocks at every
  point: the image block is fetched at each point, the other five once, at the first point, and their block index
  never moves. The result block is written back at every point.

  From this: every execution of the program terminates without a fault; the result array ends as the blocks the
  points wrote back; every other array ends as the host lines leave it; in particular the ten arguments end as
  given.
-/
import proofs.«144008_j48438641164586_2_alg».proof.Proof.Gen.KernelIdeal.Launch
import proofs.«144008_j48438641164586_2_alg».proof.Proof.Gen.KernelIdeal.Skeleton
import proofs.«144008_j48438641164586_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines around the launch -/

/-- The buffers' contents when the launch is entered: the memory after the forty host lines before it. -/
abbrev V0 (c : Dev nD) : Valuation τ sig (Elt F) := StableHlo.after (List.flatten [hostOps0]) (fun b => m (c, b))
/-- The same, read at a buffer. -/
abbrev V (c : Dev nD) (b : Ref sig .tc) : Buf (Elt F) ((c : Thread nD τ).loc b) := V0 m c (Proc.devRef .tc b)

/-- The host lines allocate nothing. -/
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- The program is: the host lines before the launch, the launch, then the last host line. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-- The last line touches the launch's arrays and the buffers that bypass it only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- It allocates nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- And it writes none of the launch's arrays (it writes the reshaped result, a buffer of its own). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl
    all_goals intro w; fin_cases w <;> simp only [StableHlo.nullary_writes, StableHlo.unary_writes, StableHlo.binary_writes, StableHlo.ternary_writes, StableHlo.quaternary_writes, StableHlo.reshape_writes, StableHlo.binaryIndexed_writes, StableHlo.nary_writes, Finset.mem_singleton] <;> exact StableHlo.devRef_ne_of_ne (by decide)

/-- No host line before the launch writes argument 0: the launch finds it as given. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 0 ends as given. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host line before the launch writes argument 1: the launch finds it as given. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 1 ends as given. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host line before the launch writes argument 2: the launch finds it as given. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 2 ends as given. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host line before the launch writes argument 3: the launch finds it as given. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 3 ends as given. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg3 (by exact (by decide : ∀ w, Pipeline.arrRef spec0 w ≠ main_arg3))]
  exact V_main_arg3 m c

/-- No host line before the launch writes argument 4: the launch finds it as given. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 4 ends as given. -/
theorem W_main_arg4 (dats : (p : Fin _) → (c : Dev nD) → Dat τ (Elt F) Unit ℕ (UR sig nD τ) ℕ (cfgs p) c) (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg4 (by exact (by decide : ∀ w, Pipeline.arrRef spec0 w ≠ main_arg4))]
  exact V_main_arg4 m c

/-- No host line before the launch writes argument 5: the launch finds it as given. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 5 ends as given. -/
theorem W_main_arg5 (dats : (p : Fin _) → (c : Dev nD) → Dat τ (Elt F) Unit ℕ (UR sig nD τ) ℕ (cfgs p) c) (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg5 (by exact (by decide : ∀ w, Pipeline.arrRef spec0 w ≠ main_arg5))]
  exact V_main_arg5 m c

/-- No host line before the launch writes argument 6: the launch finds it as given. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 6 ends as given. -/
theorem W_main_arg6 (dats : (p : Fin _) → (c : Dev nD) → Dat τ (Elt F) Unit ℕ (UR sig nD τ) ℕ (cfgs p) c) (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg6 (by exact (by decide : ∀ w, Pipeline.arrRef spec0 w ≠ main_arg6))]
  exact V_main_arg6 m c

/-- No host line before the launch writes argument 7: the launch finds it as given. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 7 ends as given. -/
theorem W_main_arg7 (dats : (p : Fin _) → (c : Dev nD) → Dat τ (Elt F) Unit ℕ (UR sig nD τ) ℕ (cfgs p) c) (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg7 (by exact (by decide : ∀ w, Pipeline.arrRef spec0 w ≠ main_arg7))]
  exact V_main_arg7 m c

/-- No host line before the launch writes argument 8: the launch finds it as given. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 8 ends as given. -/
theorem W_main_arg8 (dats : (p : Fin _) → (c : Dev nD) → Dat τ (Elt F) Unit ℕ (UR sig nD τ) ℕ (cfgs p) c) (c : Dev nD) :
    Pipeline.afterTail₀ cfgs dats 0 (V0 m) [hostOps1] c main_arg8 = m ((c : Thread nD τ).loc main_arg8) := by
  unfold Pipeline.afterTail₀
  rw [StableHlo.after_of_forall_not_mem (b := Proc.devRef .tc main_arg8) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg8 (by exact (by decide : ∀ w, Pipeline.arrRef spec0 w ≠ main_arg8))]
  exact V_main_arg8 m c

/-- No host line before the launch writes argument 9: the launch finds it as given. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-- Nor does the line after it: argument 9 ends as given. -/
theorem W_main_arg9 (dats : (p : Fin _) → (c : Dev nD) → Dat τ (Elt F) Unit ℕ (UR sig nD τ) ℕ (cfgs p) c) (c : Dev nD) :
    Pipeline.afterTail₀ cfgs dats 0 (V0 m) [hostOps1] c main_arg9 = m ((c : Thread nD τ).loc main_arg9) := by
  unfold Pipeline.afterTail₀
  rw [StableHlo.after_of_forall_not_mem (b := Proc.devRef .tc main_arg9) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
      all_goals exact StableHlo.devRef_ne_of_ne (by decide))),
    Pipeline.withArrays_of_ne _ c (V0 m c) _ main_arg9 (by exact (by decide : ∀ w, Pipeline.arrRef spec0 w ≠ main_arg9))]
  exact V_main_arg9 m c

/-! ## The operands' blocks -/

/-- Operand `w`'s block at grid point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input operand 0's current staging buffer holds its block at every grid point, fetched there or not (where it
    is not fetched its block index has not moved), for any proof data over the launch-time arrays whose body leaves
    the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input operand 1's current staging buffer holds its block at every grid point, fetched there or not (where it
    is not fetched its block index has not moved), for any proof data over the launch-time arrays whose body leaves
    the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input operand 2's current staging buffer holds its block at every grid point, fetched there or not (where it
    is not fetched its block index has not moved), for any proof data over the launch-time arrays whose body leaves
    the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input operand 3's current staging buffer holds its block at every grid point, fetched there or not (where it
    is not fetched its block index has not moved), for any proof data over the launch-time arrays whose body leaves
    the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input operand 4's current staging buffer holds its block at every grid point, fetched there or not (where it
    is not fetched its block index has not moved), for any proof data over the launch-time arrays whose body leaves
    the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input operand 5's current staging buffer holds its block at every grid point, fetched there or not (where it
    is not fetched its block index has not moved), for any proof data over the launch-time arrays whose body leaves
    the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-! ## The arguments end as given -/

/-- From a run whose end state has every array the launch does not stage as the last host line leaves it: the ten
    arguments end as given. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Pipeline.mem_restRefs_of main_arg0 (by decide) (by decide))).trans (W_main_arg0 m dats c),
      ((h c).2 main_arg1 (Pipeline.mem_restRefs_of main_arg1 (by decide) (by decide))).trans (W_main_arg1 m dats c),
      ((h c).2 main_arg2 (Pipeline.mem_restRefs_of main_arg2 (by decide) (by decide))).trans (W_main_arg2 m dats c),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c),
      ((h c).2 main_arg8 (Pipeline.mem_restRefs_of main_arg8 (by decide) (by decide))).trans (W_main_arg8 m dats c),
      ((h c).2 main_arg9 (Pipeline.mem_restRefs_of main_arg9 (by decide) (by decide))).trans (W_main_arg9 m dats c)⟩) h

/-! ## The body -/

/-- The whole of a [64, 64, 192] buffer, of the fused weight, of the fused bias row, of the output matrix, of its
    bias row, of the scale: the rectangles the body reads and stores through. -/
abbrev rX : Rect S64x64x192 := Rect.unit (s := S64x64x192) ![0, 0, 0] S64x64x192.size inb_S64x64x192_S64x64x192_0_0_0
abbrev rW : Rect S192x768 := Rect.unit (s := S192x768) ![0, 0] S192x768.size inb_S192x768_S192x768_0_0
abbrev rB : Rect S1x768 := Rect.unit (s := S1x768) ![0, 0] S1x768.size inb_S1x768_S1x768_0_0
abbrev rWo : Rect S192x192 := Rect.unit (s := S192x192) ![0, 0] S192x192.size inb_S192x192_S192x192_0_0
abbrev rBo : Rect S1x192 := Rect.unit (s := S1x192) ![0, 0] S1x192.size inb_S1x192_S1x192_0_0
abbrev rG : Rect S1x1 := Rect.unit (s := S1x1) ![0, 0] S1x1.size inb_S1x1_S1x1_0_0

/-- What the body leaves in the result's staging buffer, from the six input blocks: its one store, of the whole
    buffer, of the body's arithmetic on what it loaded. -/
def outBlk (x0 : Vec F S64x64x192 .f32) (x1 : Vec F S192x768 .bf16) (x2 : Vec F S1x768 .f32) (x3 : Vec F S192x192 .bf16)
    (x4 : Vec F S1x192 .f32) (x5 : Vec F S1x1 .f32) : Vec F S64x64x192 .f32 :=
  View.canon [⟨rX, k0_pay1 (k0_pay2 (View.ld x0 rX) (View.ld x1 rW) (View.ld x2 rB) (View.ld x3 rWo)) (k0_pay3 (View.ld x4 rBo)) (View.ld x5 rG) (View.ld x0 rX)⟩]

/-- The one store covers the buffer. -/
theorem cover_out (p0 : Vec F S64x64x192 .f32) (y : S64x64x192.Idx) :
    ∃ pc ∈ ([⟨rX, p0⟩] : List (View.Piece (Elt F) S64x64x192 .f32)), y ∈ pc.1.set :=
  View.cover_of_tiled [⟨rX, p0⟩] S64x64x192.size (by rfl) y

set_option maxHeartbeats 1000000 in
/-- The body on whole staging buffers, the inputs' at contents `x0 … x5` and the result's at anything, runs to the
    end leaving the inputs' as they were and the result's at `outBlk` of them. -/
theorem sound_kernel (c : Dev nD) (E : Set ℕ) (i : grid0.Coords)
    (arg1 : Memref sig .tc .vmem S64x64x192 .f32) (harg1 : arg1.IsWhole) (arg2 : Memref sig .tc .vmem S192x768 .bf16) (harg2 : arg2.IsWhole)
    (arg3 : Memref sig .tc .vmem S1x768 .f32) (harg3 : arg3.IsWhole) (arg4 : Memref sig .tc .vmem S192x192 .bf16) (harg4 : arg4.IsWhole)
    (arg5 : Memref sig .tc .vmem S1x192 .f32) (harg5 : arg5.IsWhole) (arg6 : Memref sig .tc .vmem S1x1 .f32) (harg6 : arg6.IsWhole)
    (arg7 : Memref sig .tc .vmem S64x64x192 .f32) (harg7 : arg7.IsWhole)
    (x0 : Vec F S64x64x192 .f32) (x1 : Vec F S192x768 .bf16) (x2 : Vec F S1x768 .f32) (x3 : Vec F S192x192 .bf16)
    (x4 : Vec F S1x192 .f32) (x5 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ owns (c : Thread nD τ) arg6 fullShare x5
        ∗ (∃ d, owns (c : Thread nD τ) arg7 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4 ∗ owns (c : Thread nD τ) arg6 fullShare x5
            ∗ owns (c : Thread nD τ) arg7 fullShare (outBlk x0 x1 x2 x3 x4 x5)) -∗ K ⟨⟩))
      ⊢ wp frame (wpE (defs₀ (F := F)) Variants.none c none) E (cc0__kernel i arg1 harg1 arg2 harg2 arg3 harg3 arg4 harg4 arg5 harg5 arg6 harg6 arg7 harg7) K := by
  simp only [cc0__kernel_eq_skeleton]; unfold cc0__kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  iexists _; isplitr
  swap; · iexact H6
  ipureintro
  try dsimp only
  exact View.read_writes_eq_canon _ _ _ (cover_out _)

/-! ## The launch's proof data -/

/-- On core `c`: the arrays as the launch finds them; after the body at point `t` each input's buffer still at
    its block and the result's at `outBlk` of the point's input blocks; nothing else is touched. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out (c : Dev nD) (t : Fin cfg0.N) : (dats m 0 c).after 6 t
    = outBlk (iblk m c 0 t) (iblk m c 1 t) (iblk m c 2 t) (iblk m c 3 t) (iblk m c 4 t) (iblk m c 5 t) := by dsimp only [dats]

theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-! ## The body at a grid point -/

/-- What the body is called with at point `t`, the seven staging buffers one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the inputs' buffers hold their blocks, so `sound_kernel` applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).Φ t.succ = (dats m 0 c).Φ t.castSucc from rfl,
    show (dats m 0 c).owesAt () t.succ = (dats m 0 c).owesAt () t.castSucc from rfl,
    after_in0, after_in1, after_in2, after_in3, after_in4, after_in5, after_out]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ (grid0.coords t) _ _ _ _ _ _ _ _ _ _ _ _ _ _
    (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- From any memory with zero counters every execution of the program terminates, and at the end each array of the
    launch holds what the blocks written back make of it, every other buffer what the last host line leaves. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to the end and its ten arguments end as given. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

end Cert.KernelIdeal.Around

end
-- ==== Proof.LibNary3.lean ====
/-
  A host operation of three operands, given as a literal family of three buffers (a concatenation of three arrays):
  what it leaves in its result buffer is its function of the three operands' contents, each read at its own buffer.

  The general statement reads operand k at the k-th member of the family under a binder, where the buffer is not a
  literal; here the three reads are written out one by one, so that each can be rewritten further.
-/
import Idealize.ShloMosaic.Lib.StableHlo.Run

noncomputable section

namespace Idealize.ShloMosaic.StableHlo

variable {τ : Topo} {sig : RefSig} {Val : EltTy → Type}

/-- The result of a three-operand host operation with each operand's contents at its own buffer. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same for an operation whose function reads its three operands one by one: the function's body applied to
    the three operands' contents. -/
theorem nary3_result_each {x a b y : Ref sig .tc}
    (g : x.ty.Contents Val → a.ty.Contents Val → b.ty.Contents Val → y.ty.Contents Val) (hxs hy)
    (F : Valuation τ sig Val) :
    (nary (τ := τ) ![x, a, b] y (fun u => g (u 0) (u 1) (u 2)) hxs hy).result F (Proc.devRef .tc y)
      = g (F (Proc.devRef .tc x)) (F (Proc.devRef .tc a)) (F (Proc.devRef .tc b)) := by
  rw [nary_result]; rfl

/-- Peels the operations that do not write the buffer in view, down to the one that does. -/
macro "after_peel" : tactic =>
  `(tactic| (simp (disch := decide) only [after_cons, after_nil,
      nullary_result_ne', unary_result_ne', binary_result_ne', ternary_result_ne', quaternary_result_ne', reshape_result_ne',
      nary_result_ne']))

theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- Reads a buffer's contents after a line of host operations, in one pass: each operation's result at its own buffer
    is its function of its operands' contents (the three-operand form included), at any other buffer what was there. -/
macro "after_results3_simp" : tactic =>
  `(tactic| (simp (disch := decide) only [after_cons, after_nil,
      nullary_result', unary_result', binary_result', ternary_result', quaternary_result', reshape_result', nary3_result',
      nullary_result_ne', unary_result_ne', binary_result_ne', ternary_result_ne', quaternary_result_ne', reshape_result_ne',
      nary_result_ne']))

/-- The same reading, one operation at a time, outermost first. -/
macro "after_results3" : tactic =>
  `(tactic| (simp only [after_cons, after_nil]
             repeat (first
               | rw [nullary_result] | rw [unary_result] | rw [binary_result] | rw [ternary_result] | rw [quaternary_result]
               | rw [reshape_result] | rw [nary3_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo

end
-- ==== Proof.IdealOperands.lean ====
/-
  What the host lines leave in the launch's six operand arrays, as functions of the arguments (extended reals).

  x is reshaped [4096, 8, 8, 192] → [4096, 64, 192]. Each projection matrix is written into the first 192 columns of a
  zero [192, 256] array and the three padded arrays are laid side by side, [192, 768]; each projection bias likewise
  into a zero vector of 256, the three laid end to end and reshaped to one row [1, 768]. The output matrix only
  changes format (the identity on extended reals); its bias becomes a row [1, 192]; the scale [1, 1, 1] becomes [1, 1].
-/
import proofs.«144008_j48438641164586_2_alg».proof.Proof.IdealAround
import proofs.«144008_j48438641164586_2_alg».proof.Proof.LibNary3
import Idealize.ShloMosaic.PureOps.Ideal
import Idealize.ShloMosaic.Lib.Pipeline.Value

set_option maxRecDepth 16384

noncomputable section

namespace Cert.KernelIdeal.Operands

open Cert.KernelIdeal Cert.KernelIdeal.Gen Cert.KernelIdeal.Around
open Idealize.ShloMosaic Idealize.ShloMosaic.TcCoe Idealize.SL.Sem Idealize.ShloMosaic.StableHlo

/-- A projection matrix written into the first 192 columns of a zero [192, 256] array. -/
def padW (W : S192x192.Idx → EReal) : S192x256.Idx → EReal :=
  truncf (F := Ideal) .bf16 (Host.scatter scatter_S192x256_S1_S192x192_01_n_1_0 (fun _ b => b)
    (broadcastInDim S192x256 ![] bcast_S_S192x256 (constant (F := Ideal) S_ .f32 0x00000000#32))
    (broadcastInDim S1 ![] bcast_S_S1 (constantI S_ 32 0#32)) W) bitsLt_bf16_f32

/-- The three padded matrices side by side. -/
def wqkv (W1 W3 W5 : S192x192.Idx → EReal) : S192x768.Idx → EReal :=
  concatenate S192x768 1 [⟨S192x256, padW W1⟩, ⟨S192x256, padW W3⟩, ⟨S192x256, padW W5⟩]
    concatenates_S192x256_S192x256_S192x256_S192x768_d1

/-- A projection bias written into the first 192 entries of a zero vector of 256. -/
def padB (v : S192.Idx → EReal) : S256.Idx → EReal :=
  Host.scatter scatter_S256_S1_S192_0_n_0_0 (fun _ b => b)
    (broadcastInDim S256 ![] bcast_S_S256 (constant (F := Ideal) S_ .f32 0x00000000#32))
    (broadcastInDim S1 ![] bcast_S_S1 (constantI S_ 32 0#32)) v

/-- The three padded biases end to end, as one row. -/
def bqkv (v2 v4 v6 : S192.Idx → EReal) : S1x768.Idx → EReal :=
  shapeCast S1x768 (concatenate S768 0 [⟨S256, padB v2⟩, ⟨S256, padB v4⟩, ⟨S256, padB v6⟩]
    concatenates_S256_S256_S256_S768_d0) shapeCasts_S768_S1x768

variable (m : (ℓ : Loc nD τ sig) → Buf (Elt Ideal) ℓ)

theorem V_v0 (c : Dev nD) : (V m c main_v0 : S4096x64x192.Idx → EReal)
    = shapeCast S4096x64x192 (m ((c : Thread nD τ).loc main_arg0)) shapeCasts_S4096x8x8x192_S4096x64x192 := by
  show StableHlo.after hostOps0 (fun b => m (c, b)) (Proc.devRef .tc main_v0) = _
  after_results3
  try rfl

/-- Three pieces laid side by side are equal when the pieces are. -/
theorem wcat_congr {A A' B B' C C' : S192x256.Idx → EReal} (hA : A = A') (hB : B = B') (hC : C = C') :
    concatenate S192x768 1 [⟨S192x256, A⟩, ⟨S192x256, B⟩, ⟨S192x256, C⟩] concatenates_S192x256_S192x256_S192x256_S192x768_d1
      = concatenate S192x768 1 [⟨S192x256, A'⟩, ⟨S192x256, B'⟩, ⟨S192x256, C'⟩] concatenates_S192x256_S192x256_S192x256_S192x768_d1 := by
  subst hA hB hC; rfl

set_option maxHeartbeats 4000000 in
theorem V_v13 (c : Dev nD) : (V m c main_v13 : S192x768.Idx → EReal)
    = wqkv (m ((c : Thread nD τ).loc main_arg1)) (m ((c : Thread nD τ).loc main_arg3)) (m ((c : Thread nD τ).loc main_arg5)) := by
  show StableHlo.after hostOps0 (fun b => m (c, b)) (Proc.devRef .tc main_v13) = _
  after_peel
  refine (nary3_result_each (x := main_v4) (a := main_v8) (b := main_v12) (y := main_v13)
    (g := fun A B C => concatenate S192x768 1 [⟨S192x256, A⟩, ⟨S192x256, B⟩, ⟨S192x256, C⟩]
      concatenates_S192x256_S192x256_S192x256_S192x768_d1) _ _ _).trans ?_
  refine wcat_congr ?_ ?_ ?_
  · after_results3_simp
    try rfl
  · after_results3_simp
    try rfl
  · after_results3_simp
    try rfl

set_option maxHeartbeats 4000000 in
theorem V_v24 (c : Dev nD) : (V m c main_v24 : S1x768.Idx → EReal)
    = bqkv (m ((c : Thread nD τ).loc main_arg2)) (m ((c : Thread nD τ).loc main_arg4)) (m ((c : Thread nD τ).loc main_arg6)) := by
  show StableHlo.after hostOps0 (fun b => m (c, b)) (Proc.devRef .tc main_v24) = _
  after_results3_simp
  try rfl

theorem V_v25 (c : Dev nD) : (V m c main_v25 : S192x192.Idx → EReal)
    = truncf (F := Ideal) .bf16 (m ((c : Thread nD τ).loc main_arg7)) bitsLt_bf16_f32 := by
  show StableHlo.after hostOps0 (fun b => m (c, b)) (Proc.devRef .tc main_v25) = _
  after_results3
  try rfl

theorem V_v26 (c : Dev nD) : (V m c main_v26 : S1x192.Idx → EReal)
    = shapeCast S1x192 (m ((c : Thread nD τ).loc main_arg8)) shapeCasts_S192_S1x192 := by
  show StableHlo.after hostOps0 (fun b => m (c, b)) (Proc.devRef .tc main_v26) = _
  after_results3
  try rfl

theorem V_v27 (c : Dev nD) : (V m c main_v27 : S1x1.Idx → EReal)
    = shapeCast S1x1 (m ((c : Thread nD τ).loc main_arg9)) shapeCasts_S1x1x1_S1x1 := by
  show StableHlo.after hostOps0 (fun b => m (c, b)) (Proc.devRef .tc main_v27) = _
  after_results3
  try rfl

end Cert.KernelIdeal.Operands

end
-- ==== Proof.Spec.lean ====
/-
  The function both programs compute, written once over plain coordinates.

  One image is 64 positions by 192 channels. With q = x·Wf + bf, g = x·Wg + bg, v = x·Wh + bh (each a sum over the
  192 input channels plus a bias), the attention logits are l(n, m) = Σ_f q(n, f) · g(m, f); each row of l is
  shifted by its maximum (taken from −∞, and once more against −∞), exponentiated, and divided by the row's sum of
  exponentials; the weights mix the rows of v; the mix goes through Wo, bo, is scaled by γ and added to x.

  Everything is on the extended reals, with the operations in exactly the order and grouping written here.
-/
import Idealize.ShloMosaic.PureOps.Ideal
import Idealize.ShloMosaic.Lib.ValueIdx

noncomputable section

namespace Cert.Spec

open Idealize.ShloMosaic Idealize.ShloMosaic.ValueIdx

/-- The f32 word of −∞, as both programs spell the maximum's starting value. -/
abbrev negInf : EReal := Ideal.ofBits .f32 0xFF800000#32

/-- A 1×1 convolution of one image: entry (n, f) is Σ_k x(n, k) · W(k, f), plus the bias b(f). -/
def proj (x : Fin 64 → Fin 192 → EReal) (W : Fin 192 → Fin 192 → EReal) (b : Fin 192 → EReal)
    (n : Fin 64) (f : Fin 192) : EReal :=
  (∑ k : Fin 192, x n k * W k f) + b f

/-- The logits: l(n, m) = Σ_f q(n, f) · g(m, f). -/
def logit (q g : Fin 64 → Fin 192 → EReal) (n m : Fin 64) : EReal :=
  ∑ f : Fin 192, q n f * g m f

/-- A row's maximum: the maximum from −∞ over the row, then once more against −∞. -/
def rowMax (l : Fin 64 → Fin 64 → EReal) (n : Fin 64) : EReal :=
  max negInf ((Finset.univ : Finset (Fin 64)).fold max negInf (fun m => l n m))

/-- The shifted exponentials. -/
def expo (l : Fin 64 → Fin 64 → EReal) (n m : Fin 64) : EReal :=
  Ideal.exp (l n m - rowMax l n)

/-- The softmax weights: each exponential over its row's sum. -/
def soft (l : Fin 64 → Fin 64 → EReal) (n m : Fin 64) : EReal :=
  Ideal.div (expo l n m) (∑ m' : Fin 64, expo l n m')

/-- Mixing the rows of v with the weights p: entry (n, f) is Σ_m p(n, m) · v(m, f). -/
def mix (p : Fin 64 → Fin 64 → EReal) (v : Fin 64 → Fin 192 → EReal) (n : Fin 64) (f : Fin 192) : EReal :=
  ∑ m : Fin 64, p n m * v m f

/-- One image's result at (n, f): x(n, f) + γ · (Σ_k mixed(n, k) · Wo(k, f) + bo(f)). -/
def attn (x : Fin 64 → Fin 192 → EReal)
    (Wf : Fin 192 → Fin 192 → EReal) (bf : Fin 192 → EReal)
    (Wg : Fin 192 → Fin 192 → EReal) (bg : Fin 192 → EReal)
    (Wh : Fin 192 → Fin 192 → EReal) (bh : Fin 192 → EReal)
    (Wo : Fin 192 → Fin 192 → EReal) (bo : Fin 192 → EReal) (γ : EReal)
    (n : Fin 64) (f : Fin 192) : EReal :=
  x n f + γ * ((∑ k : Fin 192,
      mix (soft (logit (proj x Wf bf) (proj x Wg bg))) (proj x Wh bh) n k * Wo k f) + bo f)

/-- The position h·8 + w of a pixel (h, w) of the 8×8 map. -/
def pos (h w : Fin 8) : Fin 64 := ⟨h.val * 8 + w.val, by have := h.isLt; have := w.isLt; omega⟩
/-- The pixel row of a position. -/
def posH (n : Fin 64) : Fin 8 := ⟨n.val / 8, by have := n.isLt; omega⟩
/-- The pixel column of a position. -/
def posW (n : Fin 64) : Fin 8 := ⟨n.val % 8, by have := n.isLt; omega⟩

/-- The whole result over the ten argument arrays: at (b, h, w, f), image b's result at position h·8 + w. -/
def G (x0 : (⟨4, ![4096, 8, 8, 192]⟩ : Shape).Idx → EReal)
    (x1 : (⟨2, ![192, 192]⟩ : Shape).Idx → EReal) (x2 : (⟨1, ![192]⟩ : Shape).Idx → EReal)
    (x3 : (⟨2, ![192, 192]⟩ : Shape).Idx → EReal) (x4 : (⟨1, ![192]⟩ : Shape).Idx → EReal)
    (x5 : (⟨2, ![192, 192]⟩ : Shape).Idx → EReal) (x6 : (⟨1, ![192]⟩ : Shape).Idx → EReal)
    (x7 : (⟨2, ![192, 192]⟩ : Shape).Idx → EReal) (x8 : (⟨1, ![192]⟩ : Shape).Idx → EReal)
    (x9 : (⟨3, ![1, 1, 1]⟩ : Shape).Idx → EReal) :
    (⟨4, ![4096, 8, 8, 192]⟩ : Shape).Idx → EReal := fun i =>
  attn (fun n k => x0 (ix4 (i 0) (posH n) (posW n) k))
    (fun k f => x1 (ix2 k f)) (fun f => x2 (ix1 f))
    (fun k f => x3 (ix2 k f)) (fun f => x4 (ix1 f))
    (fun k f => x5 (ix2 k f)) (fun f => x6 (ix1 f))
    (fun k f => x7 (ix2 k f)) (fun f => x8 (ix1 f))
    (x9 (ix3 0 0 0)) (pos (i 1) (i 2)) (i 3)

end Cert.Spec

end
-- ==== Proof.IdealBlocks.lean ====
/-
  The launch's operand blocks at a grid point, read at an index.

  The grid has 64 points; at point t the image operand's block is rows t·64 … t·64 + 63 of the [4096, 64, 192] array
  (block index (t, 0, 0)), and so is the result's; the other five operands have one block, the whole array, at every
  point (block index (0, 0)). A block's entry y is the array's entry at block index × block size + y, axis by axis.
-/
import proofs.«144008_j48438641164586_2_alg».proof.Proof.IdealOperands
import proofs.«144008_j48438641164586_2_alg».proof.Proof.Spec
import Idealize.ShloMosaic.Lib.ValueIdx

set_option maxRecDepth 16384

noncomputable section

namespace Cert.KernelIdeal.Blocks

open Cert.KernelIdeal Cert.KernelIdeal.Gen Cert.KernelIdeal.Around Cert.KernelIdeal.Operands
open Idealize.ShloMosaic Idealize.ShloMosaic.TcCoe Idealize.SL.Sem Idealize.ShloMosaic.ValueIdx

variable (m : (ℓ : Loc nD τ sig) → Buf (Elt Ideal) ℓ)

/-- The block indices over the grid: the image operand's and the result's move with the point along the first axis;
    every other operand's stays at the origin. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = t.val ∧ win0_6.index t (1 : Fin 3) = 0 ∧ win0_6.index t (2 : Fin 3) = 0 :=
  (by decide +kernel : ∀ t : Fin grid0.N, _)

/-- Image t·64 + p. -/
def img (t : Fin cfg0.N) (p : Fin 64) : Fin 4096 := ⟨t.val * 64 + p.val, by
  have ht : t.val < 64 := t.isLt
  have := p.isLt; omega⟩

/-- The image block at point t: entry (p, n, k) is x at image t·64 + p, pixel (n / 8, n % 8), channel k. -/
theorem blk0_apply (c : Dev nD) (t : Fin cfg0.N) (p n : Fin 64) (k : Fin 192) :
    iblk m c 0 t (ix3 p n k) = m ((c : Thread nD τ).loc main_arg0) (ix4 (img t p) (Spec.posH n) (Spec.posW n) k) := by
  obtain ⟨e0, e1, e2, -⟩ := idx_facts t
  show V m c main_v0 (((cfg0.win 0).blk t).view.emb (ix3 p n k)) = _
  rw [V_v0]
  refine shapeCast_apply _ _ _ _ ?_
  show (S4096x8x8x192.rowMajor (ix4 (img t p) (Spec.posH n) (Spec.posW n) k)).val = (S4096x64x192.rowMajor (((cfg0.win 0).blk t).view.emb (ix3 p n k))).val
  rw [Shape.rowMajor_val_four, Shape.rowMajor_val_three]
  show (((t.val * 64 + p.val) * 8 + n.val / 8) * 8 + n.val % 8) * 192 + k.val
    = ((win0_0.index t (0 : Fin 3) * 64 + 1 * p.val) * 64 + (win0_0.index t (1 : Fin 3) * 64 + 1 * n.val)) * 192
      + (win0_0.index t (2 : Fin 3) * 192 + 1 * k.val)
  rw [e0, e1, e2]
  have := n.isLt
  omega

/-- The fused weight's block at any point is the whole array. -/
theorem blk1_apply (c : Dev nD) (t : Fin cfg0.N) (k : Fin 192) (j : Fin 768) :
    iblk m c 1 t (ix2 k j) = wqkv (m ((c : Thread nD τ).loc main_arg1)) (m ((c : Thread nD τ).loc main_arg3))
      (m ((c : Thread nD τ).loc main_arg5)) (ix2 k j) := by
  obtain ⟨-, -, -, e0, e1, -⟩ := idx_facts t
  show V m c main_v13 (((cfg0.win 1).blk t).view.emb (ix2 k j)) = _
  rw [V_v13]
  refine congrArg _ (funext fun a => Fin.ext ?_)
  match a with
  | ⟨0, _⟩ => show win0_1.index t (0 : Fin 2) * 192 + 1 * k.val = k.val; rw [e0]; omega
  | ⟨1, _⟩ => show win0_1.index t (1 : Fin 2) * 768 + 1 * j.val = j.val; rw [e1]; omega

/-- The fused bias row's block at any point is the whole row. -/
theorem blk2_apply (c : Dev nD) (t : Fin cfg0.N) (j : Fin 768) :
    iblk m c 2 t (ix2 0 j) = bqkv (m ((c : Thread nD τ).loc main_arg2)) (m ((c : Thread nD τ).loc main_arg4))
      (m ((c : Thread nD τ).loc main_arg6)) (ix2 0 j) := by
  obtain ⟨-, -, -, -, -, e0, e1, -⟩ := idx_facts t
  show V m c main_v24 (((cfg0.win 2).blk t).view.emb (ix2 0 j)) = _
  rw [V_v24]
  refine congrArg _ (funext fun a => Fin.ext ?_)
  match a with
  | ⟨0, _⟩ => show win0_2.index t (0 : Fin 2) * 1 + 1 * 0 = 0; rw [e0]
  | ⟨1, _⟩ => show win0_2.index t (1 : Fin 2) * 768 + 1 * j.val = j.val; rw [e1]; omega

/-- The output matrix's block at any point is the whole matrix (its format change is the identity). -/
theorem blk3_apply (c : Dev nD) (t : Fin cfg0.N) (k f : Fin 192) :
    iblk m c 3 t (ix2 k f) = m ((c : Thread nD τ).loc main_arg7) (ix2 k f) := by
  obtain ⟨-, -, -, -, -, -, -, e0, e1, -⟩ := idx_facts t
  show V m c main_v25 (((cfg0.win 3).blk t).view.emb (ix2 k f)) = _
  rw [V_v25]
  show m ((c : Thread nD τ).loc main_arg7) (((cfg0.win 3).blk t).view.emb (ix2 k f)) = _
  refine congrArg _ (funext fun a => Fin.ext ?_)
  match a with
  | ⟨0, _⟩ => show win0_3.index t (0 : Fin 2) * 192 + 1 * k.val = k.val; rw [e0]; omega
  | ⟨1, _⟩ => show win0_3.index t (1 : Fin 2) * 192 + 1 * f.val = f.val; rw [e1]; omega

/-- The output bias row's block at any point is the whole row. -/
theorem blk4_apply (c : Dev nD) (t : Fin cfg0.N) (f : Fin 192) :
    iblk m c 4 t (ix2 0 f) = m ((c : Thread nD τ).loc main_arg8) (ix1 f) := by
  obtain ⟨-, -, -, -, -, -, -, -, -, e0, e1, -⟩ := idx_facts t
  show V m c main_v26 (((cfg0.win 4).blk t).view.emb (ix2 0 f)) = _
  rw [V_v26]
  refine shapeCast_apply _ _ _ _ ?_
  show (S192.rowMajor (ix1 f)).val = (S1x192.rowMajor (((cfg0.win 4).blk t).view.emb (ix2 0 f))).val
  rw [Shape.rowMajor_val_one, Shape.rowMajor_val_two]
  show f.val = (win0_4.index t (0 : Fin 2) * 1 + 1 * 0) * 192 + (win0_4.index t (1 : Fin 2) * 192 + 1 * f.val)
  rw [e0, e1]; omega

/-- The scale's block at any point is the one entry. -/
theorem blk5_apply (c : Dev nD) (t : Fin cfg0.N) :
    iblk m c 5 t (ix2 0 0) = m ((c : Thread nD τ).loc main_arg9) (ix3 0 0 0) := by
  obtain ⟨-, -, -, -, -, -, -, -, -, -, -, e0, e1, -⟩ := idx_facts t
  show V m c main_v27 (((cfg0.win 5).blk t).view.emb (ix2 0 0)) = _
  rw [V_v27]
  refine shapeCast_apply _ _ _ _ ?_
  show (S1x1x1.rowMajor (ix3 0 0 0)).val = (S1x1.rowMajor (((cfg0.win 5).blk t).view.emb (ix2 0 0))).val
  rw [Shape.rowMajor_val_three, Shape.rowMajor_val_two]
  show (0 * 1 + 0) * 1 + 0 = (win0_5.index t (0 : Fin 2) * 1 + 1 * 0) * 1 + (win0_5.index t (1 : Fin 2) * 1 + 1 * 0)
  rw [e0, e1]

end Cert.KernelIdeal.Blocks

end
-- ==== Proof.IdealTail.lean ====
/-
  The one host line after the launch: the launch's result [4096, 64, 192] reshaped to [4096, 8, 8, 192].

  What the last buffer holds at the end is the row-major re-reading, at the four-axis shape, of what the launch left in
  its result array; and that last buffer is none of the launch's own arrays.
-/
import proofs.«144008_j48438641164586_2_alg».proof.Proof.IdealAround
import Idealize.ShloMosaic.Lib.StableHlo.Run
import Idealize.ShloMosaic.PureOps.Ideal

set_option maxRecDepth 16384

noncomputable section

namespace Cert.KernelIdeal.Tail

open Cert.KernelIdeal Cert.KernelIdeal.Gen Cert.KernelIdeal.Around
open Idealize.ShloMosaic Idealize.ShloMosaic.TcCoe Idealize.SL.Sem Idealize.ShloMosaic.StableHlo

variable (m : (ℓ : Loc nD τ sig) → Buf (Elt Ideal) ℓ)

/-- The final buffer holds the launch's result array, reshaped. -/
theorem tail_v29 (c : Dev nD) :
    (Pipeline.afterTail₀ cfgs (dats m) 0 (V0 m) [hostOps1] c main_v29 : S4096x8x8x192.Idx → EReal)
      = shapeCast S4096x8x8x192 ((dats m 0 c).arrAt 6 cfg0.N) shapeCasts_S4096x64x192_S4096x8x8x192 := by
  unfold Pipeline.afterTail₀
  show StableHlo.after hostOps1 _ (Proc.devRef .tc main_v29) = _
  after_results
  have e : Pipeline.withArrays (cfgs 0).spec c (V0 m c) (fun w => (dats m 0 c).arrAt w (cfgs 0).N)
      (Proc.devRef .tc main_v28) = (dats m 0 c).arrAt 6 (cfgs 0).N :=
    Pipeline.withArrays_arr (cfgs 0).spec winFacts0.arr_inj c (V0 m c) (fun w => (dats m 0 c).arrAt w (cfgs 0).N) 6
  rw [e]
  rfl

/-- The final buffer is not one of the launch's arrays. -/
theorem mem_rest_v29 : main_v29 ∈ Pipeline.restRefs sig (cfgs 0).spec :=
  Pipeline.mem_restRefs_of main_v29 (by decide) (by decide)

end Cert.KernelIdeal.Tail

end
-- ==== Proof.LibPlainDot.lean ====
/-
  A product of an [M, K] array by a [K, N] array, with the dimension numbers "contract the left operand's second
  axis against the right operand's first, no batch axis", read at one entry of the result.

  On the extended reals both the vector unit's product into a zero accumulator and the host's dot product are, at the
  entry (r, c), the sum over the contracted coordinate k of a(r, k) · b(k, c). The two operations index their operands
  through the dimension numbers' own index maps and sum over the contraction's index set; here that sum is carried over
  to a sum over k : Fin K, and the operand indices are written out by coordinates. Nothing about the sizes is used.
-/
import Idealize.ShloMosaic.PureOps.Ideal.Laws
import Idealize.ShloMosaic.Lib.ValueIdx

noncomputable section

namespace Cert.PlainDot

open Idealize.ShloMosaic Idealize.ShloMosaic.ValueIdx

/-- The product of an [M, K] array and a [K, N] array of extended reals: entry (r, c) is the sum over k of
    a(r, k) · b(k, c). -/
def mm {M K N : Nat} (a : (⟨2, ![M, K]⟩ : Shape).Idx → EReal) (b : (⟨2, ![K, N]⟩ : Shape).Idx → EReal) :
    (⟨2, ![M, N]⟩ : Shape).Idx → EReal :=
  fun i => ∑ k : Fin K, a (ix2 (i 0) k) * b (ix2 k (i 1))

theorem mm_apply {M K N : Nat} (a : (⟨2, ![M, K]⟩ : Shape).Idx → EReal) (b : (⟨2, ![K, N]⟩ : Shape).Idx → EReal)
    (i : (⟨2, ![M, N]⟩ : Shape).Idx) : mm a b i = ∑ k : Fin K, a (ix2 (i 0) k) * b (ix2 k (i 1)) := rfl

/-- The left operand's index at result entry `j` and contracted coordinate `k` is (row of `j`, `k`). -/
theorem lhs_plain {M K N : Nat} (j : (⟨2, ![M, N]⟩ : Shape).Idx) (k : Fin K) :
    (DotDims.plain M K N).lhsIdx j ((contrEquiv1 (DotDims.plain M K N) K rfl rfl).symm k) = ix2 (j 0) k := by
  have hk := contrEquiv1_symm_val (DotDims.plain M K N) K rfl rfl k
  funext a
  apply Fin.ext
  match a with
  | ⟨0, _⟩ =>
    show ((DotDims.plain M K N).lhsIdx j _ 0).val = (j 0).val
    unfold DotDims.lhsIdx
    rw [dif_neg (show ¬(0 : Fin (⟨2, ![M, K]⟩ : Shape).rank) ∈ (DotDims.plain M K N).lhsBatch from List.not_mem_nil),
      dif_pos (show (0 : Fin (⟨2, ![M, K]⟩ : Shape).rank) ∈ (DotDims.plain M K N).lhsNonContracting from List.mem_singleton.mpr rfl)]
    rfl
  | ⟨1, _⟩ => exact ((DotDims.plain M K N).lhsIdx_val_of_single rfl j _).trans hk

/-- The right operand's index at result entry `j` and contracted coordinate `k` is (`k`, column of `j`). -/
theorem rhs_plain {M K N : Nat} (j : (⟨2, ![M, N]⟩ : Shape).Idx) (k : Fin K) :
    (DotDims.plain M K N).rhsIdx j ((contrEquiv1 (DotDims.plain M K N) K rfl rfl).symm k) = ix2 k (j 1) := by
  have hk := contrEquiv1_symm_val (DotDims.plain M K N) K rfl rfl k
  funext a
  apply Fin.ext
  match a with
  | ⟨0, _⟩ => exact ((DotDims.plain M K N).rhsIdx_val_of_single rfl j _).trans hk
  | ⟨1, _⟩ =>
    show ((DotDims.plain M K N).rhsIdx j _ 1).val = (j 1).val
    unfold DotDims.rhsIdx
    rw [dif_neg (show ¬(1 : Fin (⟨2, ![K, N]⟩ : Shape).rank) ∈ (DotDims.plain M K N).rhsBatch from List.not_mem_nil),
      dif_pos (show (1 : Fin (⟨2, ![K, N]⟩ : Shape).rank) ∈ (DotDims.plain M K N).rhsNonContracting from List.mem_singleton.mpr rfl)]
    rfl

/-- The sum over the contraction's index set is the sum over the contracted coordinate. -/
theorem sum_plain {M K N : Nat} (a : (⟨2, ![M, K]⟩ : Shape).Idx → EReal) (b : (⟨2, ![K, N]⟩ : Shape).Idx → EReal)
    (j : (⟨2, ![M, N]⟩ : Shape).Idx) :
    ∑ q : (DotDims.plain M K N).contr.Idx, a ((DotDims.plain M K N).lhsIdx j q) * b ((DotDims.plain M K N).rhsIdx j q)
      = mm a b j := by
  rw [← Equiv.sum_comp (contrEquiv1 (DotDims.plain M K N) K rfl rfl).symm]
  exact Finset.sum_congr rfl fun k _ => congrArg₂ (· * ·) (congrArg a (lhs_plain j k)) (congrArg b (rhs_plain j k))

/-- The vector unit's product into a zero accumulator, whatever the operands' formats, is `mm`. -/
theorem matmul_zero {M K N : Nat} {φ₁ φ₂ : FTy} (prec : Option ContractPrecision)
    (a : FVec Ideal ⟨2, ![M, K]⟩ φ₁) (b : FVec Ideal ⟨2, ![K, N]⟩ φ₂) :
    (matmul (DotDims.plain M K N) prec a b (constant (F := Ideal) ⟨2, ![M, N]⟩ .f32 0x00000000#32) : FVec Ideal ⟨2, ![M, N]⟩ .f32)
      = mm a b :=
  funext fun j => (Ideal.matmul_constant_zero_apply (DotDims.plain M K N) prec a b j).trans (sum_plain a b j)

/-- The host's dot product is `mm`. -/
theorem hostDot {M K N : Nat} {φ₁ φ₂ : FTy} (prec : Option ContractPrecision)
    (a : FVec Ideal ⟨2, ![M, K]⟩ φ₁) (b : FVec Ideal ⟨2, ![K, N]⟩ φ₂) :
    (Host.dotGeneral (F := Ideal) (DotDims.plain M K N) prec a b : FVec Ideal ⟨2, ![M, N]⟩ .f32) = mm a b :=
  funext fun j => by
    simp only [Host.dotGeneral]
    exact (Ideal.dotGeneral_apply (DotDims.plain M K N) prec _ a b j).trans (sum_plain a b j)

end Cert.PlainDot

end
-- ==== Proof.BlockA.lean ====
/-
  The fused projection of one block of 64 images, read at an entry.

  The block's 64 x 64 positions are laid out as 4096 rows, row p * 64 + n being position n of image p. The product of
  these rows with the [192, 768] weight array into a zero accumulator, plus the bias row, is at (row, c) the sum over
  the 192 input channels k of x(p, n, k) * w(k, c), plus b(0, c). A column window of 192 columns starting at column o,
  laid back out as [64, 64, 192], is at (p, n, f) that entry at column o + f.
-/
import proofs.«144008_j48438641164586_2_alg».proof.Proof.Gen.KernelIdeal.Skeleton
import proofs.«144008_j48438641164586_2_alg».proof.Proof.Spec
import proofs.«144008_j48438641164586_2_alg».proof.Proof.LibPlainDot
import Idealize.ShloMosaic.Lib.Pipeline.Value
import Idealize.ShloMosaic.Lib.ValueLayout

noncomputable section

namespace Cert.KernelIdeal.Blk

open Idealize.ShloMosaic Idealize.ShloMosaic.ValueIdx Cert.KernelIdeal Cert.KernelIdeal.Facts₀ Cert.KernelIdeal.Facts

variable [Cert.KernelIdeal.Facts]

/-- Row p * 64 + n of the 4096 rows. -/
def row (p n : Fin 64) : Fin 4096 := ⟨p.val * 64 + n.val, by have := p.isLt; have := n.isLt; omega⟩

/-- The block as 4096 rows of 192 channels: row p * 64 + n is position n of image p. -/
theorem flat_apply (x0 : Vec Ideal S64x64x192 .f32) (p n : Fin 64) (k : Fin 192) :
    (truncf .bf16 (shapeCast S4096x192 x0 shapeCasts_S64x64x192_S4096x192) bitsLt_bf16_f32 : FVec Ideal S4096x192 .bf16)
      (ix2 (row p n) k) = x0 (ix3 p n k) := by
  rw [truncf_apply]
  exact shapeCast_apply _ _ _ _ (by rw [Shape.rowMajor_val_three, Shape.rowMajor_val_two]; rfl)

theorem dot1_eq : dot_S4096x192_S192x768_S4096x768_1_0_0_1_n_n = DotDims.plain 4096 192 768 := rfl

/-- The fused projection with its bias row. -/
def fused (x0 : Vec Ideal S64x64x192 .f32) (w : Vec Ideal S192x768 .bf16) (b : Vec Ideal S1x768 .f32) : FVec Ideal S4096x768 .f32 :=
  addf (matmul dot_S4096x192_S192x768_S4096x768_1_0_0_1_n_n none
      (truncf .bf16 (shapeCast S4096x192 (shapeCast S64x64x192 x0 shapeCasts_S64x64x192_S64x64x192)
        shapeCasts_S64x64x192_S4096x192) bitsLt_bf16_f32)
      (shapeCast S192x768 w shapeCasts_S192x768_S192x768 : FVec Ideal S192x768 .bf16) (constant S4096x768 .f32 0x00000000#32))
    (broadcastTo S4096x768 (shapeCast S1x768 b shapeCasts_S1x768_S1x768 : FVec Ideal S1x768 .f32) broadcasts_S1x768_S4096x768)

/-- A plain product of the block's rows with a [192, N] array into zero, at (row p * 64 + n, c). -/
theorem rows_mm {N : Nat} (d : DotDims S4096x192 ⟨2, ![192, N]⟩ ⟨2, ![4096, N]⟩) (hd : d = DotDims.plain 4096 192 N)
    (A : FVec Ideal S4096x192 .bf16) (B : FVec Ideal ⟨2, ![192, N]⟩ .bf16) (r : Fin 4096) (c : Fin N) :
    (matmul d none A B (constant (F := Ideal) ⟨2, ![4096, N]⟩ .f32 0x00000000#32) : FVec Ideal ⟨2, ![4096, N]⟩ .f32) (ix2 r c)
      = ∑ k : Fin 192, A (ix2 r k) * B (ix2 k c) := by
  subst hd
  exact congrFun (Cert.PlainDot.matmul_zero none A B) (ix2 r c)

theorem fused_apply (x0 : Vec Ideal S64x64x192 .f32) (w : Vec Ideal S192x768 .bf16) (b : Vec Ideal S1x768 .f32)
    (p n : Fin 64) (c : Fin 768) :
    fused x0 w b (ix2 (row p n) c) = (∑ k : Fin 192, x0 (ix3 p n k) * w (ix2 k c)) + b (ix2 0 c) := by
  unfold fused
  simp only [shapeCast_self]
  rw [addf_apply]
  refine congrArg₂ (· + ·) ?_ ?_
  · refine (rows_mm _ dot1_eq _ w (row p n) c).trans ?_
    exact Finset.sum_congr rfl fun k _ => congrArg (· * w (ix2 k c)) (flat_apply x0 p n k)
  · exact broadcastTo_apply _ _ _ _ (fun a => by
      match a with
      | ⟨0, _⟩ => rfl
      | ⟨1, _⟩ => rfl)

/-- A window of 192 columns from column o of a [4096, 768] array, laid back out as [64, 64, 192]: at (p, n, f) it is
    the array at (row p * 64 + n, column o + f). -/
theorem window_apply (X : FVec Ideal S4096x768 .f32) (o : Nat) (hs : S4096x768.Slices ![0, o] S4096x192)
    (p n : Fin 64) (f : Fin 192) (c : Fin 768) (hc : c.val = o + f.val) :
    (truncf .bf16 (shapeCast S64x64x192 (extractStridedSlice S4096x192 ![0, o] X hs) shapeCasts_S4096x192_S64x64x192)
      bitsLt_bf16_f32 : FVec Ideal S64x64x192 .bf16) (ix3 p n f) = X (ix2 (row p n) c) := by
  rw [truncf_apply]
  refine (shapeCast_apply _ _ _ (ix2 (row p n) f)
    (by rw [Shape.rowMajor_val_three, Shape.rowMajor_val_two]; rfl)).trans ?_
  exact slice2_axis1_apply o X hs (row p n) f c hc

/-- One of the three projections of the block: the window of the fused projection from column o. -/
def part (x0 : Vec Ideal S64x64x192 .f32) (w : Vec Ideal S192x768 .bf16) (b : Vec Ideal S1x768 .f32) (o : Nat)
    (hs : S4096x768.Slices ![0, o] S4096x192) : FVec Ideal S64x64x192 .bf16 :=
  truncf .bf16 (shapeCast S64x64x192 (extractStridedSlice S4096x192 ![0, o] (fused x0 w b) hs) shapeCasts_S4096x192_S64x64x192)
    bitsLt_bf16_f32

/-- The window from column o is, image by image, the 1 x 1 convolution with the weight columns o, o + 1, ... and
    the bias entries there. -/
theorem part_apply (x0 : Vec Ideal S64x64x192 .f32) (w : Vec Ideal S192x768 .bf16) (b : Vec Ideal S1x768 .f32) (o : Nat)
    (hs : S4096x768.Slices ![0, o] S4096x192) (col : Fin 192 → Fin 768) (hcol : ∀ f, (col f).val = o + f.val)
    (p n : Fin 64) (f : Fin 192) :
    part x0 w b o hs (ix3 p n f)
      = Cert.Spec.proj (fun n k => x0 (ix3 p n k)) (fun k f => w (ix2 k (col f))) (fun f => b (ix2 0 (col f))) n f :=
  (window_apply (fused x0 w b) o hs p n f (col f) (hcol f)).trans (fused_apply x0 w b p n (col f))

end Cert.KernelIdeal.Blk

end
-- ==== Proof.BlockB.lean ====
/-
  The two batched products of the block, read at an entry.

  Both have the image index p as their batch axis. The first contracts the channel axis of both operands:
  at (p, n, m) it is the sum over f of Q(p, n, f) * G(p, m, f). The second contracts the last axis of its left
  operand against the middle axis of its right operand: at (p, n, f) it is the sum over m of P(p, n, m) * V(p, m, f).
  Each sum over the contraction's index set is carried over to a sum over the contracted coordinate, and the operand
  indices are read coordinate by coordinate.
-/
import proofs.«144008_j48438641164586_2_alg».proof.Proof.Gen.KernelIdeal.Skeleton
import proofs.«144008_j48438641164586_2_alg».proof.Proof.Spec
import Idealize.ShloMosaic.PureOps.Ideal.Laws
import Idealize.ShloMosaic.Lib.ValueIdx

noncomputable section

namespace Cert.KernelIdeal.Blk

open Idealize.ShloMosaic Idealize.ShloMosaic.ValueIdx Cert.KernelIdeal Cert.KernelIdeal.Facts₀ Cert.KernelIdeal.Facts

variable [Cert.KernelIdeal.Facts]

/-! ## Contracting the channel axes -/

theorem qk_lhs (i : S64x64x64.Idx) (k : Fin 192) :
    dot_S64x64x192_S64x64x192_S64x64x64_2_2_1_1_0_0.lhsIdx i ((contrEquiv1 dot_S64x64x192_S64x64x192_S64x64x64_2_2_1_1_0_0 192 rfl rfl).symm k) = ix3 (i 0) (i 1) k := by
  have hk := contrEquiv1_symm_val dot_S64x64x192_S64x64x192_S64x64x64_2_2_1_1_0_0 192 rfl rfl k
  funext a
  apply Fin.ext
  match a with
  | ⟨0, _⟩ =>
    show (dot_S64x64x192_S64x64x192_S64x64x64_2_2_1_1_0_0.lhsIdx i _ 0).val = (i 0).val
    unfold DotDims.lhsIdx
    rw [dif_pos (show (0 : Fin S64x64x192.rank) ∈ dot_S64x64x192_S64x64x192_S64x64x64_2_2_1_1_0_0.lhsBatch by decide)]
    rfl
  | ⟨1, _⟩ =>
    show (dot_S64x64x192_S64x64x192_S64x64x64_2_2_1_1_0_0.lhsIdx i _ 1).val = (i 1).val
    unfold DotDims.lhsIdx
    rw [dif_neg (show ¬(1 : Fin S64x64x192.rank) ∈ dot_S64x64x192_S64x64x192_S64x64x64_2_2_1_1_0_0.lhsBatch by decide),
      dif_pos (show (1 : Fin S64x64x192.rank) ∈ dot_S64x64x192_S64x64x192_S64x64x64_2_2_1_1_0_0.lhsNonContracting by decide)]
    rfl
  | ⟨2, _⟩ => exact (dot_S64x64x192_S64x64x192_S64x64x64_2_2_1_1_0_0.lhsIdx_val_of_single rfl i _).trans hk

theorem qk_rhs (i : S64x64x64.Idx) (k : Fin 192) :
    dot_S64x64x192_S64x64x192_S64x64x64_2_2_1_1_0_0.rhsIdx i ((contrEquiv1 dot_S64x64x192_S64x64x192_S64x64x64_2_2_1_1_0_0 192 rfl rfl).symm k) = ix3 (i 0) (i 2) k := by
  have hk := contrEquiv1_symm_val dot_S64x64x192_S64x64x192_S64x64x64_2_2_1_1_0_0 192 rfl rfl k
  funext a
  apply Fin.ext
  match a with
  | ⟨0, _⟩ =>
    show (dot_S64x64x192_S64x64x192_S64x64x64_2_2_1_1_0_0.rhsIdx i _ 0).val = (i 0).val
    unfold DotDims.rhsIdx
    rw [dif_pos (show (0 : Fin S64x64x192.rank) ∈ dot_S64x64x192_S64x64x192_S64x64x64_2_2_1_1_0_0.rhsBatch by decide)]
    rfl
  | ⟨1, _⟩ =>
    show (dot_S64x64x192_S64x64x192_S64x64x64_2_2_1_1_0_0.rhsIdx i _ 1).val = (i 2).val
    unfold DotDims.rhsIdx
    rw [dif_neg (show ¬(1 : Fin S64x64x192.rank) ∈ dot_S64x64x192_S64x64x192_S64x64x64_2_2_1_1_0_0.rhsBatch by decide),
      dif_pos (show (1 : Fin S64x64x192.rank) ∈ dot_S64x64x192_S64x64x192_S64x64x64_2_2_1_1_0_0.rhsNonContracting by decide)]
    rfl
  | ⟨2, _⟩ => exact (dot_S64x64x192_S64x64x192_S64x64x64_2_2_1_1_0_0.rhsIdx_val_of_single rfl i _).trans hk

/-- The logits of the block: at (p, n, m), the sum over the channels f of Q(p, n, f) * G(p, m, f). -/
theorem logits_apply (Q G : FVec Ideal S64x64x192 .bf16) (p n m : Fin 64) :
    (matmul dot_S64x64x192_S64x64x192_S64x64x64_2_2_1_1_0_0 none Q G (constant (F := Ideal) S64x64x64 .f32 0x00000000#32) : FVec Ideal S64x64x64 .f32) (ix3 p n m)
      = Cert.Spec.logit (fun n f => Q (ix3 p n f)) (fun m f => G (ix3 p m f)) n m := by
  refine (Ideal.matmul_constant_zero_apply dot_S64x64x192_S64x64x192_S64x64x64_2_2_1_1_0_0 none Q G (ix3 p n m)).trans ?_
  rw [← Equiv.sum_comp (contrEquiv1 dot_S64x64x192_S64x64x192_S64x64x64_2_2_1_1_0_0 192 rfl rfl).symm]
  refine Finset.sum_congr rfl fun k _ => ?_
  rw [qk_lhs, qk_rhs]
  rfl

/-! ## Contracting the weights' last axis against the values' position axis -/

theorem pv_lhs (i : S64x64x192.Idx) (k : Fin 64) :
    dot_S64x64x64_S64x64x192_S64x64x192_2_1_1_2_0_0.lhsIdx i ((contrEquiv1 dot_S64x64x64_S64x64x192_S64x64x192_2_1_1_2_0_0 64 rfl rfl).symm k) = ix3 (i 0) (i 1) k := by
  have hk := contrEquiv1_symm_val dot_S64x64x64_S64x64x192_S64x64x192_2_1_1_2_0_0 64 rfl rfl k
  funext a
  apply Fin.ext
  match a with
  | ⟨0, _⟩ =>
    show (dot_S64x64x64_S64x64x192_S64x64x192_2_1_1_2_0_0.lhsIdx i _ 0).val = (i 0).val
    unfold DotDims.lhsIdx
    rw [dif_pos (show (0 : Fin S64x64x64.rank) ∈ dot_S64x64x64_S64x64x192_S64x64x192_2_1_1_2_0_0.lhsBatch by decide)]
    rfl
  | ⟨1, _⟩ =>
    show (dot_S64x64x64_S64x64x192_S64x64x192_2_1_1_2_0_0.lhsIdx i _ 1).val = (i 1).val
    unfold DotDims.lhsIdx
    rw [dif_neg (show ¬(1 : Fin S64x64x64.rank) ∈ dot_S64x64x64_S64x64x192_S64x64x192_2_1_1_2_0_0.lhsBatch by decide),
      dif_pos (show (1 : Fin S64x64x64.rank) ∈ dot_S64x64x64_S64x64x192_S64x64x192_2_1_1_2_0_0.lhsNonContracting by decide)]
    rfl
  | ⟨2, _⟩ => exact (dot_S64x64x64_S64x64x192_S64x64x192_2_1_1_2_0_0.lhsIdx_val_of_single rfl i _).trans hk

theorem pv_rhs (i : S64x64x192.Idx) (k : Fin 64) :
    dot_S64x64x64_S64x64x192_S64x64x192_2_1_1_2_0_0.rhsIdx i ((contrEquiv1 dot_S64x64x64_S64x64x192_S64x64x192_2_1_1_2_0_0 64 rfl rfl).symm k) = ix3 (i 0) k (i 2) := by
  have hk := contrEquiv1_symm_val dot_S64x64x64_S64x64x192_S64x64x192_2_1_1_2_0_0 64 rfl rfl k
  funext a
  apply Fin.ext
  match a with
  | ⟨0, _⟩ =>
    show (dot_S64x64x64_S64x64x192_S64x64x192_2_1_1_2_0_0.rhsIdx i _ 0).val = (i 0).val
    unfold DotDims.rhsIdx
    rw [dif_pos (show (0 : Fin S64x64x192.rank) ∈ dot_S64x64x64_S64x64x192_S64x64x192_2_1_1_2_0_0.rhsBatch by decide)]
    rfl
  | ⟨1, _⟩ => exact (dot_S64x64x64_S64x64x192_S64x64x192_2_1_1_2_0_0.rhsIdx_val_of_single rfl i _).trans hk
  | ⟨2, _⟩ =>
    show (dot_S64x64x64_S64x64x192_S64x64x192_2_1_1_2_0_0.rhsIdx i _ 2).val = (i 2).val
    unfold DotDims.rhsIdx
    rw [dif_neg (show ¬(2 : Fin S64x64x192.rank) ∈ dot_S64x64x64_S64x64x192_S64x64x192_2_1_1_2_0_0.rhsBatch by decide),
      dif_pos (show (2 : Fin S64x64x192.rank) ∈ dot_S64x64x64_S64x64x192_S64x64x192_2_1_1_2_0_0.rhsNonContracting by decide)]
    rfl

/-- The mix of the block: at (p, n, f), the sum over the positions m of P(p, n, m) * V(p, m, f). -/
theorem mix_apply (W : FVec Ideal S64x64x64 .bf16) (V : FVec Ideal S64x64x192 .bf16) (p n : Fin 64) (f : Fin 192) :
    (matmul dot_S64x64x64_S64x64x192_S64x64x192_2_1_1_2_0_0 none W V (constant (F := Ideal) S64x64x192 .f32 0x00000000#32) : FVec Ideal S64x64x192 .f32) (ix3 p n f)
      = Cert.Spec.mix (fun n m => W (ix3 p n m)) (fun m f => V (ix3 p m f)) n f := by
  refine (Ideal.matmul_constant_zero_apply dot_S64x64x64_S64x64x192_S64x64x192_2_1_1_2_0_0 none W V (ix3 p n f)).trans ?_
  rw [← Equiv.sum_comp (contrEquiv1 dot_S64x64x64_S64x64x192_S64x64x192_2_1_1_2_0_0 64 rfl rfl).symm]
  refine Finset.sum_congr rfl fun k _ => ?_
  rw [pv_lhs, pv_rhs]
  rfl

end Cert.KernelIdeal.Blk

end
-- ==== Proof.BlockC.lean ====
/-
  The softmax of the block's logits, read at an entry.

  For logits L of shape [64, 64, 64] (image, row, column), each row's maximum is taken from the word of minus
  infinity over the row's 64 columns and once more against that word; the row is shifted by it, exponentiated,
  and divided by the sum of the row's exponentials. A value per (image, row) is carried to the row's 64 columns
  by a reshape to [64, 64, 1] and a broadcast along the last axis.
-/
import proofs.«144008_j48438641164586_2_alg».proof.Proof.Gen.KernelIdeal.Skeleton
import proofs.«144008_j48438641164586_2_alg».proof.Proof.Spec
import Idealize.ShloMosaic.PureOps.Ideal.Laws
import Idealize.ShloMosaic.Lib.ValueIdx
import Idealize.ShloMosaic.Lib.Pipeline.Value

noncomputable section

namespace Cert.KernelIdeal.Blk

open Idealize.ShloMosaic Idealize.ShloMosaic.ValueIdx Cert.KernelIdeal Cert.KernelIdeal.Facts₀ Cert.KernelIdeal.Facts

variable [Cert.KernelIdeal.Facts]

/-- The source index over (p, n) with column m inserted is (p, n, m). -/
theorem lift_apply (h : S64x64x64.Reduces [2] S64x64) (p n m : Fin 64) : h.lift (ix2 p n) m = ix3 p n m := by
  funext c
  apply Fin.ext
  match c with
  | ⟨0, _⟩ => rfl
  | ⟨1, _⟩ => rfl
  | ⟨2, _⟩ => rfl

/-- A value per (image, row) carried along the row. -/
theorem along_apply (R : FVec Ideal S64x64 .f32) (p n m : Fin 64) :
    (broadcastTo S64x64x64 (shapeCast S64x64x1 R shapeCasts_S64x64_S64x64x1 : FVec Ideal S64x64x1 .f32)
      broadcasts_S64x64x1_S64x64x64 : FVec Ideal S64x64x64 .f32) (ix3 p n m) = R (ix2 p n) := by
  refine (broadcastTo_apply _ _ _ (ix3 p n (0 : Fin 1)) (fun a => by
    match a with
    | ⟨0, _⟩ => rfl
    | ⟨1, _⟩ => rfl
    | ⟨2, _⟩ => rfl)).trans ?_
  exact shapeCast_apply _ _ _ _ (by
    rw [Shape.rowMajor_val_two, Shape.rowMajor_val_three]
    show p.val * 64 + n.val = (p.val * 64 + n.val) * 1 + 0
    omega)

/-- The rows' maxima. -/
def rowMaxV (L : FVec Ideal S64x64x64 .f32) : FVec Ideal S64x64 .f32 :=
  maximumf (broadcast S64x64 (Scalar.ofBits .f32 0xFF800000#32))
    (multiReduction .maximumf [2] S64x64 L 0xFF800000#32 reduces_S64x64x64_S64x64 (.inl rfl) rfl)

theorem rowMaxV_apply (L : FVec Ideal S64x64x64 .f32) (p n : Fin 64) :
    rowMaxV L (ix2 p n) = Cert.Spec.rowMax (fun n m => L (ix3 p n m)) n := by
  unfold rowMaxV
  rw [maximumf_apply, broadcast_apply]
  refine congrArg₂ max rfl ?_
  refine (Ideal.multiReduction_maximumf_single L _ reduces_S64x64x64_S64x64 _ _ (ix2 p n)).trans ?_
  exact congrArg (Finset.univ.fold max _) (funext fun m => congrArg L (lift_apply _ p n m))

/-- The shifted exponentials. -/
def expV (L : FVec Ideal S64x64x64 .f32) : FVec Ideal S64x64x64 .f32 :=
  exp (subf L (broadcastTo S64x64x64 (shapeCast S64x64x1 (rowMaxV L) shapeCasts_S64x64_S64x64x1 : FVec Ideal S64x64x1 .f32)
    broadcasts_S64x64x1_S64x64x64))

theorem expV_apply (L : FVec Ideal S64x64x64 .f32) (p n m : Fin 64) :
    expV L (ix3 p n m) = Cert.Spec.expo (fun n m => L (ix3 p n m)) n m := by
  show Ideal.exp (L (ix3 p n m) - _) = _
  unfold Cert.Spec.expo
  exact congrArg (fun z => Ideal.exp (L (ix3 p n m) - z)) ((along_apply (rowMaxV L) p n m).trans (rowMaxV_apply L p n))

/-- The rows' sums of exponentials. -/
def sumV (L : FVec Ideal S64x64x64 .f32) : FVec Ideal S64x64 .f32 :=
  multiReduction .add [2] S64x64 (expV L) 0x00000000#32 reduces_S64x64x64_S64x64 (.inl rfl) rfl

theorem sumV_apply (L : FVec Ideal S64x64x64 .f32) (p n : Fin 64) :
    sumV L (ix2 p n) = ∑ m' : Fin 64, Cert.Spec.expo (fun n m => L (ix3 p n m)) n m' := by
  unfold sumV
  refine (Ideal.multiReduction_add_single (expV L) _ reduces_S64x64x64_S64x64 _ _ (ix2 p n)).trans ?_
  exact Finset.sum_congr rfl fun m _ => (congrArg (expV L) (lift_apply _ p n m)).trans (expV_apply L p n m)

/-- The softmax weights. -/
def softV (L : FVec Ideal S64x64x64 .f32) : FVec Ideal S64x64x64 .f32 :=
  divf (expV L) (broadcastTo S64x64x64 (shapeCast S64x64x1 (sumV L) shapeCasts_S64x64_S64x64x1 : FVec Ideal S64x64x1 .f32)
    broadcasts_S64x64x1_S64x64x64)

theorem softV_apply (L : FVec Ideal S64x64x64 .f32) (p n m : Fin 64) :
    softV L (ix3 p n m) = Cert.Spec.soft (fun n m => L (ix3 p n m)) n m := by
  unfold softV Cert.Spec.soft
  rw [divf_apply]
  exact congrArg₂ Ideal.div (expV_apply L p n m) ((along_apply (sumV L) p n m).trans (sumV_apply L p n))

end Cert.KernelIdeal.Blk

end
-- ==== Proof.BlockD.lean ====
/-
  The block's output product, the closing arithmetic, and the whole body's arithmetic at an entry.

  The mixed values, laid out as 4096 rows, are multiplied by the [192, 192] output weights into a zero accumulator;
  the bias row is added; the rows are laid back out as [64, 64, 192], scaled by the scalar gamma and added to the
  block itself. Composed with the projections, the logits, the softmax and the mix, the entry (p, n, f) of what the
  body stores is the specification's per-image function of image p at (n, f).
-/
import proofs.«144008_j48438641164586_2_alg».proof.Proof.BlockA
import proofs.«144008_j48438641164586_2_alg».proof.Proof.BlockB
import proofs.«144008_j48438641164586_2_alg».proof.Proof.BlockC

noncomputable section

namespace Cert.KernelIdeal.Blk

open Idealize.ShloMosaic Idealize.ShloMosaic.ValueIdx Cert.KernelIdeal Cert.KernelIdeal.Facts₀ Cert.KernelIdeal.Facts

variable [Cert.KernelIdeal.Facts]

theorem dot4_eq : dot_S4096x192_S192x192_S4096x192_1_0_0_1_n_n = DotDims.plain 4096 192 192 := rfl

/-- The output product of a [64, 64, 192] array with the output weights. -/
def outV (Mx : FVec Ideal S64x64x192 .f32) (wo : Vec Ideal S192x192 .bf16) : FVec Ideal S4096x192 .f32 :=
  matmul dot_S4096x192_S192x192_S4096x192_1_0_0_1_n_n none
    (truncf .bf16 (shapeCast S4096x192 Mx shapeCasts_S64x64x192_S4096x192) bitsLt_bf16_f32)
    (shapeCast S192x192 wo shapeCasts_S192x192_S192x192 : FVec Ideal S192x192 .bf16) (constant S4096x192 .f32 0x00000000#32)

theorem outV_apply (Mx : FVec Ideal S64x64x192 .f32) (wo : Vec Ideal S192x192 .bf16) (p n : Fin 64) (f : Fin 192) :
    outV Mx wo (ix2 (row p n) f) = ∑ k : Fin 192, Mx (ix3 p n k) * wo (ix2 k f) := by
  unfold outV
  simp only [shapeCast_self]
  refine (rows_mm _ dot4_eq _ wo (row p n) f).trans ?_
  exact Finset.sum_congr rfl fun k _ => congrArg (· * wo (ix2 k f)) (flat_apply Mx p n k)

/-- The closing arithmetic: x + gamma * (V + bo), with V read at row p * 64 + n. -/
theorem pay1_apply (V : FVec Ideal S4096x192 .f32) (bo : Vec Ideal S1x192 .f32) (g : Vec Ideal S1x1 .f32)
    (x0 : Vec Ideal S64x64x192 .f32) (p n : Fin 64) (f : Fin 192) :
    Cert.KernelIdeal.Gen.k0_pay1 (F := Ideal) V (Cert.KernelIdeal.Gen.k0_pay3 bo) g x0 (ix3 p n f)
      = x0 (ix3 p n f) + g (ix2 0 0) * (V (ix2 (row p n) f) + bo (ix2 0 f)) := by
  unfold Cert.KernelIdeal.Gen.k0_pay1 Cert.KernelIdeal.Gen.k0_pay3
  simp only [shapeCast_self]
  rw [addf_apply, mulf_apply, broadcast_apply]
  refine congrArg₂ (· + ·) rfl (congrArg₂ (· * ·) ?_ ?_)
  · unfold extractAt
    exact congrArg g (funext fun a => by
      match a with
      | ⟨0, _⟩ => rfl
      | ⟨1, _⟩ => rfl)
  · refine (shapeCast_apply _ _ _ (ix2 (row p n) f)
      (by rw [Shape.rowMajor_val_three, Shape.rowMajor_val_two]; rfl)).trans ?_
    rw [addf_apply]
    exact congrArg (V (ix2 (row p n) f) + ·) (broadcastTo_apply bo _ _ (ix2 0 f) (fun a => by
      match a with
      | ⟨0, _⟩ => rfl
      | ⟨1, _⟩ => rfl))

/-- The payload's product term is the composition of the stages. -/
theorem pay2_eq (x0 : Vec Ideal S64x64x192 .f32) (w : Vec Ideal S192x768 .bf16) (b : Vec Ideal S1x768 .f32)
    (wo : Vec Ideal S192x192 .bf16) :
    Cert.KernelIdeal.Gen.k0_pay2 (F := Ideal) x0 w b wo
      = outV (matmul dot_S64x64x64_S64x64x192_S64x64x192_2_1_1_2_0_0 none
          (truncf .bf16 (softV (matmul dot_S64x64x192_S64x64x192_S64x64x64_2_2_1_1_0_0 none
            (part x0 w b 0 slices_S4096x768_o0_0_S4096x192) (part x0 w b 256 slices_S4096x768_o0_256_S4096x192)
            (constant S64x64x64 .f32 0x00000000#32))) bitsLt_bf16_f32 : FVec Ideal S64x64x64 .bf16)
          (part x0 w b 512 slices_S4096x768_o0_512_S4096x192) (constant S64x64x192 .f32 0x00000000#32)) wo := rfl

end Cert.KernelIdeal.Blk

end
-- ==== Proof.BlockValue.lean ====
/-
  The kernel body's arithmetic on one grid point's blocks, read at an entry, is the specification's per-image function.

  The block holds 64 images. At (p, n, f) the stored value is x(p, n, f) + gamma * (sum over k of mixed(p, n, k) * Wo(k, f)
  + bo(f)), where mixed is the softmax of image p's logits applied to image p's third projection, and the three
  projections are the column windows of the fused projection at columns 0, 256 and 512 of the fused weights and bias.
-/
import proofs.«144008_j48438641164586_2_alg».proof.Proof.BlockD

noncomputable section

namespace Cert.KernelIdeal.Blk

open Idealize.ShloMosaic Idealize.ShloMosaic.ValueIdx Cert.KernelIdeal Cert.KernelIdeal.Facts₀ Cert.KernelIdeal.Facts

variable [Cert.KernelIdeal.Facts]

theorem lt_first (f : Fin 192) : f.val < 768 := by have := f.isLt; omega
theorem lt_second (f : Fin 192) : 256 + f.val < 768 := by have := f.isLt; omega
theorem lt_third (f : Fin 192) : 512 + f.val < 768 := by have := f.isLt; omega

theorem pay_apply (x0 : Vec Ideal S64x64x192 .f32) (w : Vec Ideal S192x768 .bf16) (b : Vec Ideal S1x768 .f32)
    (wo : Vec Ideal S192x192 .bf16) (bo : Vec Ideal S1x192 .f32) (g : Vec Ideal S1x1 .f32) (p n : Fin 64) (f : Fin 192) :
    Cert.KernelIdeal.Gen.k0_pay1 (F := Ideal) (Cert.KernelIdeal.Gen.k0_pay2 x0 w b wo) (Cert.KernelIdeal.Gen.k0_pay3 bo) g x0
        (ix3 p n f)
      = Cert.Spec.attn (fun n k => x0 (ix3 p n k))
          (fun k f => w (ix2 k ⟨f.val, lt_first f⟩)) (fun f => b (ix2 0 ⟨f.val, lt_first f⟩))
          (fun k f => w (ix2 k ⟨256 + f.val, lt_second f⟩)) (fun f => b (ix2 0 ⟨256 + f.val, lt_second f⟩))
          (fun k f => w (ix2 k ⟨512 + f.val, lt_third f⟩)) (fun f => b (ix2 0 ⟨512 + f.val, lt_third f⟩))
          (fun k f => wo (ix2 k f)) (fun f => bo (ix2 0 f)) (g (ix2 0 0)) n f := by
  refine (pay1_apply _ bo g x0 p n f).trans ?_
  unfold Cert.Spec.attn
  refine congrArg (fun z => x0 (ix3 p n f) + g (ix2 0 0) * (z + bo (ix2 0 f))) ?_
  rw [pay2_eq, outV_apply]
  refine Finset.sum_congr rfl fun k _ => congrArg (· * wo (ix2 k f)) ?_
  refine (mix_apply _ _ p n k).trans ?_
  refine congrArg₂ (fun W V => Cert.Spec.mix W V n k) ?_ ?_
  · funext n' m'
    refine (softV_apply _ p n' m').trans ?_
    refine congrArg (fun L => Cert.Spec.soft L n' m') ?_
    funext n'' m''
    refine (logits_apply _ _ p n'' m'').trans ?_
    refine congrArg₂ (fun Q G => Cert.Spec.logit Q G n'' m'') ?_ ?_
    · funext a c
      exact part_apply x0 w b 0 _ (fun f => ⟨f.val, lt_first f⟩) (fun f => (Nat.zero_add _).symm) p a c
    · funext a c
      exact part_apply x0 w b 256 _ (fun f => ⟨256 + f.val, lt_second f⟩) (fun _ => rfl) p a c
  · funext m' f'
    exact part_apply x0 w b 512 _ (fun f => ⟨512 + f.val, lt_third f⟩) (fun _ => rfl) p m' f'

end Cert.KernelIdeal.Blk

end
-- ==== Proof.LibScatterSet.lean ====
/-
  Reading a "set" scatter at an index.

  A scatter whose combining function returns the update runs through the update's indices in row-major
  order; each one that lands inside the operand overwrites the element it lands at. When the update
  indices that land at one operand index i₀ are exactly one index j₀, the result at i₀ is the update's
  element at j₀; when none lands there, it is the operand's element.
-/
import Idealize.ShloMosaic.PureOps.ShapeOps

namespace Cert.ScatterSet

open Idealize.ShloMosaic

section Fold

variable {ι κ α : Type} [DecidableEq ι]

/-- One step of the overwrite fold: at the index \`g n\` (when there is one) the new value is \`v n\`. -/
abbrev step (g : κ → Option ι) (v : κ → α) (r : ι → α) (n : κ) : ι → α :=
  match g n with
  | some i => fun i' => if i' = i then (fun _ b => b) (r i) (v n) else r i'
  | none => r

theorem step_of_ne (g : κ → Option ι) (v : κ → α) (r : ι → α) (n : κ) (i₀ : ι) (h : g n ≠ some i₀) :
    step g v r n i₀ = r i₀ := by
  unfold step
  generalize g n = o at h
  cases o with
  | none => rfl
  | some i =>
    have : i₀ ≠ i := fun e => h (by rw [e])
    show (if i₀ = i then _ else r i₀) = r i₀
    rw [if_neg this]

theorem step_of_eq (g : κ → Option ι) (v : κ → α) (r : ι → α) (n : κ) (i₀ : ι) (h : g n = some i₀) :
    step g v r n i₀ = v n := by
  unfold step
  rw [h]
  show (if i₀ = i₀ then _ else r i₀) = v n
  rw [if_pos rfl]

/-- Steps none of which lands at \`i₀\` leave the value there as it was. -/
theorem foldl_keep (g : κ → Option ι) (v : κ → α) (i₀ : ι) (l : List κ) (r : ι → α)
    (h : ∀ n ∈ l, g n ≠ some i₀) : l.foldl (step g v) r i₀ = r i₀ := by
  induction l generalizing r with
  | nil => rfl
  | cons n l ih =>
    rw [List.foldl_cons, ih _ (fun m hm => h m (List.mem_cons_of_mem _ hm))]
    exact step_of_ne g v r n i₀ (h n (List.mem_cons_self ..))

/-- When exactly one step \`n₀\` of the list lands at \`i₀\`, the value there at the end is \`v n₀\`. -/
theorem foldl_hit (g : κ → Option ι) (v : κ → α) (i₀ : ι) (n₀ : κ) (l : List κ) (r : ι → α)
    (hmem : n₀ ∈ l) (h₀ : g n₀ = some i₀) (honly : ∀ n ∈ l, g n = some i₀ → n = n₀) (hnd : l.Nodup) :
    l.foldl (step g v) r i₀ = v n₀ := by
  induction l generalizing r with
  | nil => exact absurd hmem (List.not_mem_nil)
  | cons n l ih =>
    rw [List.foldl_cons]
    rcases List.nodup_cons.1 hnd with ⟨hn, hl⟩
    by_cases hnn : n = n₀
    · subst hnn
      rw [foldl_keep g v i₀ l _ (fun m hm e => hn ((honly m (List.mem_cons_of_mem _ hm) e) ▸ hm))]
      exact step_of_eq g v r n i₀ h₀
    · have hmem' : n₀ ∈ l := by
        rcases List.mem_cons.1 hmem with e | e
        · exact absurd e.symm hnn
        · exact e
      exact ih _ hmem' (fun m hm => honly m (List.mem_cons_of_mem _ hm)) hl

end Fold

variable {s si u : Shape} {w : Nat} {α : Type}

theorem scatter_eq_foldl (d : ScatterDims s si u) (x : s.Idx → α) (idx : IVec si w) (upd : u.Idx → α) :
    Host.scatter d (fun _ b => b) x idx upd
      = (List.finRange u.numel).foldl
          (step (fun n => d.resultIdx? (u.rowMajor.symm n) idx) (fun n => upd (u.rowMajor.symm n))) x := by
  unfold Host.scatter
  congr 1
  funext r n
  unfold step
  beta_reduce
  cases d.resultIdx? (u.rowMajor.symm n) idx <;> rfl

/-- A set-scatter read where exactly one update index lands: the result at \`i₀\` is the update at \`j₀\`. -/
theorem scatter_apply_of_unique (d : ScatterDims s si u) (x : s.Idx → α) (idx : IVec si w) (upd : u.Idx → α)
    (j₀ : u.Idx) (i₀ : s.Idx) (h₀ : d.resultIdx? j₀ idx = some i₀)
    (honly : ∀ j, d.resultIdx? j idx = some i₀ → j = j₀) :
    Host.scatter d (fun _ b => b) x idx upd i₀ = upd j₀ := by
  rw [scatter_eq_foldl]
  have := foldl_hit (fun n => d.resultIdx? (u.rowMajor.symm n) idx) (fun n => upd (u.rowMajor.symm n)) i₀
    (u.rowMajor j₀) (List.finRange u.numel) x (List.mem_finRange _)
    (by simp only [Equiv.symm_apply_apply]; exact h₀)
    (fun n _ hn => by
      have := honly _ hn
      rw [← this, Equiv.apply_symm_apply])
    (List.nodup_finRange _)
  simpa only [Equiv.symm_apply_apply] using this

/-- A set-scatter read where no update index lands: the result at \`i₀\` is the operand's element. -/
theorem scatter_apply_of_none (d : ScatterDims s si u) (x : s.Idx → α) (idx : IVec si w) (upd : u.Idx → α)
    (i₀ : s.Idx) (hno : ∀ j, d.resultIdx? j idx ≠ some i₀) :
    Host.scatter d (fun _ b => b) x idx upd i₀ = x i₀ := by
  rw [scatter_eq_foldl]
  exact foldl_keep _ _ i₀ _ x (fun n _ => hno _)

/-- Where an update index lands, from the start and window coordinates on every operand axis. -/
theorem resultIdx?_eq_some (d : ScatterDims s si u) (j : u.Idx) (idx : IVec si w) (i : s.Idx)
    (h : ∀ a, d.start j idx a + (d.window j a : Int) = ((i a).val : Int)) :
    d.resultIdx? j idx = some i := by
  unfold ScatterDims.resultIdx?
  have hc : ∀ a, 0 ≤ d.start j idx a + d.window j a ∧ d.start j idx a + d.window j a < s.size a := by
    intro a
    rw [h a]
    exact ⟨Int.natCast_nonneg _, by exact_mod_cast (i a).isLt⟩
  rw [dif_pos hc]
  congr 1
  funext a
  apply Fin.ext
  show (d.start j idx a + d.window j a).toNat = (i a).val
  rw [h a]; exact Int.toNat_natCast _

/-- Conversely: the index an update lands at has, on every axis, the start plus the window coordinate. -/
theorem of_resultIdx?_eq_some (d : ScatterDims s si u) (j : u.Idx) (idx : IVec si w) (i : s.Idx)
    (h : d.resultIdx? j idx = some i) (a : Fin s.rank) :
    d.start j idx a + (d.window j a : Int) = ((i a).val : Int) := by
  unfold ScatterDims.resultIdx? at h
  split at h
  · next hc =>
    have := Option.some.inj h
    subst this
    show _ = (((d.start j idx a + d.window j a).toNat : Nat) : Int)
    rw [Int.toNat_of_nonneg (hc a).1]
  · exact absurd h (by simp)

end Cert.ScatterSet
-- ==== Proof.HostGlue.lean ====
/-
  The host's fused operands, read at an index.

  Before the kernel runs, each of the three 192×192 projection matrices is written into the first 192 columns of a
  zero 192×256 matrix, the three padded matrices are laid side by side into a 192×768 one, and likewise the three
  length-192 biases are written into the first 192 places of zero length-256 vectors, laid end to end and reshaped
  to 1×768. Here: column c (< 192) of block t of the fused matrix is column c of matrix t, and place c of block t of
  the fused bias is place c of bias t.
-/
import proofs.«144008_j48438641164586_2_alg».proof.KernelIdeal
import proofs.«144008_j48438641164586_2_alg».proof.Proof.LibScatterSet
import Idealize.ShloMosaic.Lib.ValueIdx
import Idealize.ShloMosaic.Lib.Pipeline.Value
import Idealize.ShloMosaic.PureOps.Ideal

noncomputable section

namespace Cert.KernelIdeal.Glue

open Idealize.ShloMosaic Idealize.ShloMosaic.ValueIdx Cert.KernelIdeal
open Cert.KernelIdeal.Facts₀ Cert.KernelIdeal.Facts

variable [Cert.KernelIdeal.Facts]

/-- The one start index of every scatter here: zero. -/
abbrev idx0 : (⟨S1, .i32⟩ : BufTy).Contents (Elt Ideal) := broadcastInDim S1 ![] bcast_S_S1 (constantI S_ 32 0#32)

/-! ## A matrix written into the left columns of a zero matrix -/

/-- Every window starts at 0 on both axes. -/
theorem startW (j : S192x192.Idx) (a : Fin S192x256.rank) :
    scatter_S192x256_S1_S192x192_01_n_1_0.start j idx0 a = 0 := by
  unfold ScatterDims.start
  split <;> rfl

theorem windowW0 (j : S192x192.Idx) : scatter_S192x256_S1_S192x192_01_n_1_0.window j 0 = (j 0).val := rfl
theorem windowW1 (j : S192x192.Idx) : scatter_S192x256_S1_S192x192_01_n_1_0.window j 1 = (j 1).val := rfl

/-- The update's element (k, c) lands at (k, c). -/
theorem resultIdxW (k c : Fin 192) :
    scatter_S192x256_S1_S192x192_01_n_1_0.resultIdx? (ix2 k c) idx0
      = some (ix2 k (⟨c.val, by have := c.isLt; omega⟩ : Fin 256)) := by
  refine Cert.ScatterSet.resultIdx?_eq_some _ _ _ _ fun a => ?_
  rw [startW]
  match a with
  | ⟨0, _⟩ => exact (Int.zero_add _).trans rfl
  | ⟨1, _⟩ => exact (Int.zero_add _).trans rfl

/-- Only the update's element (k, c) lands at (k, c). -/
theorem resultIdxW_only (k : Fin 192) (c : Fin 192) (j : S192x192.Idx)
    (h : scatter_S192x256_S1_S192x192_01_n_1_0.resultIdx? j idx0
      = some (ix2 k (⟨c.val, by have := c.isLt; omega⟩ : Fin 256))) : j = ix2 k c := by
  have h0 := Cert.ScatterSet.of_resultIdx?_eq_some _ _ _ _ h 0
  have h1 := Cert.ScatterSet.of_resultIdx?_eq_some _ _ _ _ h 1
  rw [startW, windowW0] at h0
  rw [startW, windowW1] at h1
  have e0 : (j 0).val = k.val := by
    have : ((ix2 k (⟨c.val, by have := c.isLt; omega⟩ : Fin 256) : S192x256.Idx) 0).val = k.val := rfl
    omega
  have e1 : (j 1).val = c.val := by
    have : ((ix2 k (⟨c.val, by have := c.isLt; omega⟩ : Fin 256) : S192x256.Idx) 1).val = c.val := rfl
    omega
  rw [eq_ix2 j]
  exact congrArg₂ ix2 (Fin.ext e0) (Fin.ext e1)

/-- One padded matrix: the matrix written at column 0 of a zero 192×256 matrix, then narrowed. -/
def padW (W : (⟨S192x192, .f32⟩ : BufTy).Contents (Elt Ideal)) : (⟨S192x256, .bf16⟩ : BufTy).Contents (Elt Ideal) :=
  truncf (F := Ideal) .bf16 (Host.scatter scatter_S192x256_S1_S192x192_01_n_1_0 (fun _ b => b)
    (broadcastInDim S192x256 ![] bcast_S_S192x256 (constant (F := Ideal) S_ .f32 0x00000000#32))
    (broadcastInDim S1 ![] bcast_S_S1 (constantI S_ 32 0#32)) W) bitsLt_bf16_f32

/-- The padded matrix's first 192 columns are the matrix's. -/
theorem padW_apply (W : (⟨S192x192, .f32⟩ : BufTy).Contents (Elt Ideal)) (k c : Fin 192) :
    padW W (ix2 k (⟨c.val, by have := c.isLt; omega⟩ : Fin 256)) = W (ix2 k c) := by
  unfold padW
  rw [truncf_apply]
  exact Cert.ScatterSet.scatter_apply_of_unique scatter_S192x256_S1_S192x192_01_n_1_0 _ idx0 W (ix2 k c) _
    (resultIdxW k c) (resultIdxW_only k c)

/-- The fused 192×768 matrix: the three padded matrices side by side. -/
def wqkv (W1 W3 W5 : (⟨S192x192, .f32⟩ : BufTy).Contents (Elt Ideal)) : (⟨S192x768, .bf16⟩ : BufTy).Contents (Elt Ideal) :=
  concatenate S192x768 1 [⟨S192x256, padW W1⟩, ⟨S192x256, padW W3⟩, ⟨S192x256, padW W5⟩]
    concatenates_S192x256_S192x256_S192x256_S192x768_d1

/-- Block 0 of the fused matrix is the first matrix. -/
theorem wqkv_apply0 (W1 W3 W5 : (⟨S192x192, .f32⟩ : BufTy).Contents (Elt Ideal)) (k c : Fin 192) :
    wqkv W1 W3 W5 (ix2 k (⟨c.val, by have := c.isLt; omega⟩ : Fin 768)) = W1 (ix2 k c) := by
  unfold wqkv
  refine (concatenate_apply_piece (t := S192x768) 1 [⟨S192x256, padW W1⟩, ⟨S192x256, padW W3⟩, ⟨S192x256, padW W5⟩] _ _ 0 (show 0 < 3 by omega) S192x256 (padW W1) rfl rfl 0 rfl
    (ix2 k (⟨c.val, by have := c.isLt; omega⟩ : Fin 256)) ?_ ?_).trans (padW_apply W1 k c)
  · intro b hb
    match b with
    | ⟨0, _⟩ => rfl
    | ⟨1, _⟩ => exact absurd rfl hb
  · exact Nat.zero_add _

/-- Block 1 of the fused matrix is the second matrix. -/
theorem wqkv_apply1 (W1 W3 W5 : (⟨S192x192, .f32⟩ : BufTy).Contents (Elt Ideal)) (k c : Fin 192) :
    wqkv W1 W3 W5 (ix2 k (⟨256 + c.val, by have := c.isLt; omega⟩ : Fin 768)) = W3 (ix2 k c) := by
  unfold wqkv
  refine (concatenate_apply_piece (t := S192x768) 1 [⟨S192x256, padW W1⟩, ⟨S192x256, padW W3⟩, ⟨S192x256, padW W5⟩] _ _ 1 (show 1 < 3 by omega) S192x256 (padW W3) rfl rfl 256 rfl
    (ix2 k (⟨c.val, by have := c.isLt; omega⟩ : Fin 256)) ?_ ?_).trans (padW_apply W3 k c)
  · intro b hb
    match b with
    | ⟨0, _⟩ => rfl
    | ⟨1, _⟩ => exact absurd rfl hb
  · rfl

/-- Block 2 of the fused matrix is the third matrix. -/
theorem wqkv_apply2 (W1 W3 W5 : (⟨S192x192, .f32⟩ : BufTy).Contents (Elt Ideal)) (k c : Fin 192) :
    wqkv W1 W3 W5 (ix2 k (⟨512 + c.val, by have := c.isLt; omega⟩ : Fin 768)) = W5 (ix2 k c) := by
  unfold wqkv
  refine (concatenate_apply_piece (t := S192x768) 1 [⟨S192x256, padW W1⟩, ⟨S192x256, padW W3⟩, ⟨S192x256, padW W5⟩] _ _ 2 (show 2 < 3 by omega) S192x256 (padW W5) rfl rfl 512 rfl
    (ix2 k (⟨c.val, by have := c.isLt; omega⟩ : Fin 256)) ?_ ?_).trans (padW_apply W5 k c)
  · intro b hb
    match b with
    | ⟨0, _⟩ => rfl
    | ⟨1, _⟩ => exact absurd rfl hb
  · rfl

/-! ## A vector written into the first places of a zero vector -/

theorem startB (j : S192.Idx) (a : Fin S256.rank) : scatter_S256_S1_S192_0_n_0_0.start j idx0 a = 0 := by
  unfold ScatterDims.start
  split <;> rfl

theorem windowB0 (j : S192.Idx) : scatter_S256_S1_S192_0_n_0_0.window j 0 = (j 0).val := rfl

/-- The update's element c lands at c. -/
theorem resultIdxB (c : Fin 192) :
    scatter_S256_S1_S192_0_n_0_0.resultIdx? (ix1 c) idx0 = some (ix1 (⟨c.val, by have := c.isLt; omega⟩ : Fin 256)) := by
  refine Cert.ScatterSet.resultIdx?_eq_some _ _ _ _ fun a => ?_
  rw [startB]
  match a with
  | ⟨0, _⟩ => exact (Int.zero_add _).trans rfl

/-- Only the update's element c lands at c. -/
theorem resultIdxB_only (c : Fin 192) (j : S192.Idx)
    (h : scatter_S256_S1_S192_0_n_0_0.resultIdx? j idx0 = some (ix1 (⟨c.val, by have := c.isLt; omega⟩ : Fin 256))) :
    j = ix1 c := by
  have h0 := Cert.ScatterSet.of_resultIdx?_eq_some _ _ _ _ h 0
  rw [startB, windowB0] at h0
  have e0 : (j 0).val = c.val := by
    have : ((ix1 (⟨c.val, by have := c.isLt; omega⟩ : Fin 256) : S256.Idx) 0).val = c.val := rfl
    omega
  rw [eq_ix1 j]
  exact congrArg ix1 (Fin.ext e0)

/-- One padded bias: the vector written at place 0 of a zero length-256 vector. -/
def padB (v : (⟨S192, .f32⟩ : BufTy).Contents (Elt Ideal)) : (⟨S256, .f32⟩ : BufTy).Contents (Elt Ideal) :=
  Host.scatter scatter_S256_S1_S192_0_n_0_0 (fun _ b => b)
    (broadcastInDim S256 ![] bcast_S_S256 (constant (F := Ideal) S_ .f32 0x00000000#32))
    (broadcastInDim S1 ![] bcast_S_S1 (constantI S_ 32 0#32)) v

/-- The padded bias's first 192 places are the bias's. -/
theorem padB_apply (v : (⟨S192, .f32⟩ : BufTy).Contents (Elt Ideal)) (c : Fin 192) :
    padB v (ix1 (⟨c.val, by have := c.isLt; omega⟩ : Fin 256)) = v (ix1 c) := by
  unfold padB
  exact Cert.ScatterSet.scatter_apply_of_unique scatter_S256_S1_S192_0_n_0_0 _ idx0 v (ix1 c) _
    (resultIdxB c) (resultIdxB_only c)

/-- The three padded biases end to end. -/
def bcat (v2 v4 v6 : (⟨S192, .f32⟩ : BufTy).Contents (Elt Ideal)) : (⟨S768, .f32⟩ : BufTy).Contents (Elt Ideal) :=
  concatenate S768 0 [⟨S256, padB v2⟩, ⟨S256, padB v4⟩, ⟨S256, padB v6⟩] concatenates_S256_S256_S256_S768_d0

theorem bcat_apply0 (v2 v4 v6 : (⟨S192, .f32⟩ : BufTy).Contents (Elt Ideal)) (c : Fin 192) :
    bcat v2 v4 v6 (ix1 (⟨c.val, by have := c.isLt; omega⟩ : Fin 768)) = v2 (ix1 c) := by
  unfold bcat
  refine (concatenate_apply_piece (t := S768) 0 [⟨S256, padB v2⟩, ⟨S256, padB v4⟩, ⟨S256, padB v6⟩] _ _ 0 (show 0 < 3 by omega) S256 (padB v2) rfl rfl 0 rfl
    (ix1 (⟨c.val, by have := c.isLt; omega⟩ : Fin 256)) ?_ ?_).trans (padB_apply v2 c)
  · intro b hb
    match b with
    | ⟨0, _⟩ => exact absurd rfl hb
  · exact Nat.zero_add _

theorem bcat_apply1 (v2 v4 v6 : (⟨S192, .f32⟩ : BufTy).Contents (Elt Ideal)) (c : Fin 192) :
    bcat v2 v4 v6 (ix1 (⟨256 + c.val, by have := c.isLt; omega⟩ : Fin 768)) = v4 (ix1 c) := by
  unfold bcat
  refine (concatenate_apply_piece (t := S768) 0 [⟨S256, padB v2⟩, ⟨S256, padB v4⟩, ⟨S256, padB v6⟩] _ _ 1 (show 1 < 3 by omega) S256 (padB v4) rfl rfl 256 rfl
    (ix1 (⟨c.val, by have := c.isLt; omega⟩ : Fin 256)) ?_ ?_).trans (padB_apply v4 c)
  · intro b hb
    match b with
    | ⟨0, _⟩ => exact absurd rfl hb
  · rfl

theorem bcat_apply2 (v2 v4 v6 : (⟨S192, .f32⟩ : BufTy).Contents (Elt Ideal)) (c : Fin 192) :
    bcat v2 v4 v6 (ix1 (⟨512 + c.val, by have := c.isLt; omega⟩ : Fin 768)) = v6 (ix1 c) := by
  unfold bcat
  refine (concatenate_apply_piece (t := S768) 0 [⟨S256, padB v2⟩, ⟨S256, padB v4⟩, ⟨S256, padB v6⟩] _ _ 2 (show 2 < 3 by omega) S256 (padB v6) rfl rfl 512 rfl
    (ix1 (⟨c.val, by have := c.isLt; omega⟩ : Fin 256)) ?_ ?_).trans (padB_apply v6 c)
  · intro b hb
    match b with
    | ⟨0, _⟩ => exact absurd rfl hb
  · rfl

/-- The fused 1×768 bias: the three padded biases end to end, as one row. -/
def bqkv (v2 v4 v6 : (⟨S192, .f32⟩ : BufTy).Contents (Elt Ideal)) : (⟨S1x768, .f32⟩ : BufTy).Contents (Elt Ideal) :=
  shapeCast S1x768
    (concatenate S768 0 [⟨S256, padB v2⟩, ⟨S256, padB v4⟩, ⟨S256, padB v6⟩] concatenates_S256_S256_S256_S768_d0)
    shapeCasts_S768_S1x768

/-- The one row's place c is the length-768 vector's place c. -/
theorem bqkv_eq_bcat (v2 v4 v6 : (⟨S192, .f32⟩ : BufTy).Contents (Elt Ideal)) (c : Fin 768) :
    bqkv v2 v4 v6 (ix2 0 c) = bcat v2 v4 v6 (ix1 c) := by
  unfold bqkv bcat
  refine shapeCast_apply _ _ _ (ix1 c) ?_
  rw [Shape.rowMajor_val_one, Shape.rowMajor_val_two]
  show c.val = 0 * _ + c.val
  omega

theorem bqkv_apply0 (v2 v4 v6 : (⟨S192, .f32⟩ : BufTy).Contents (Elt Ideal)) (c : Fin 192) :
    bqkv v2 v4 v6 (ix2 0 (⟨c.val, by have := c.isLt; omega⟩ : Fin 768)) = v2 (ix1 c) :=
  (bqkv_eq_bcat v2 v4 v6 _).trans (bcat_apply0 v2 v4 v6 c)

theorem bqkv_apply1 (v2 v4 v6 : (⟨S192, .f32⟩ : BufTy).Contents (Elt Ideal)) (c : Fin 192) :
    bqkv v2 v4 v6 (ix2 0 (⟨256 + c.val, by have := c.isLt; omega⟩ : Fin 768)) = v4 (ix1 c) :=
  (bqkv_eq_bcat v2 v4 v6 _).trans (bcat_apply1 v2 v4 v6 c)

theorem bqkv_apply2 (v2 v4 v6 : (⟨S192, .f32⟩ : BufTy).Contents (Elt Ideal)) (c : Fin 192) :
    bqkv v2 v4 v6 (ix2 0 (⟨512 + c.val, by have := c.isLt; omega⟩ : Fin 768)) = v6 (ix1 c) :=
  (bqkv_eq_bcat v2 v4 v6 _).trans (bcat_apply2 v2 v4 v6 c)

end Cert.KernelIdeal.Glue
-- ==== Proof.SpecFlat.lean ====
/-
  The specification on the shape [4096, 64, 192] — one row per position of an image instead of one per pixel — and
  its reshape to [4096, 8, 8, 192]: position h·8 + w of the flat form is pixel (h, w) of the other.
-/
import proofs.«144008_j48438641164586_2_alg».proof.Proof.Spec
import Idealize.ShloMosaic.Lib.Pipeline.Value
import Idealize.ShloMosaic.Lib.ValueIdx

noncomputable section

namespace Cert.Spec

open Idealize.ShloMosaic Idealize.ShloMosaic.ValueIdx

/-- The whole result with the 8×8 map flattened: at (b, n, f), image b's result at position n. -/
def Gflat (x0 : (⟨4, ![4096, 8, 8, 192]⟩ : Shape).Idx → EReal)
    (x1 : (⟨2, ![192, 192]⟩ : Shape).Idx → EReal) (x2 : (⟨1, ![192]⟩ : Shape).Idx → EReal)
    (x3 : (⟨2, ![192, 192]⟩ : Shape).Idx → EReal) (x4 : (⟨1, ![192]⟩ : Shape).Idx → EReal)
    (x5 : (⟨2, ![192, 192]⟩ : Shape).Idx → EReal) (x6 : (⟨1, ![192]⟩ : Shape).Idx → EReal)
    (x7 : (⟨2, ![192, 192]⟩ : Shape).Idx → EReal) (x8 : (⟨1, ![192]⟩ : Shape).Idx → EReal)
    (x9 : (⟨3, ![1, 1, 1]⟩ : Shape).Idx → EReal) :
    (⟨3, ![4096, 64, 192]⟩ : Shape).Idx → EReal := fun i =>
  attn (fun n k => x0 (ix4 (i 0) (posH n) (posW n) k))
    (fun k f => x1 (ix2 k f)) (fun f => x2 (ix1 f))
    (fun k f => x3 (ix2 k f)) (fun f => x4 (ix1 f))
    (fun k f => x5 (ix2 k f)) (fun f => x6 (ix1 f))
    (fun k f => x7 (ix2 k f)) (fun f => x8 (ix1 f))
    (x9 (ix3 0 0 0)) (i 1) (i 2)

/-- Reshaping the flat form to [4096, 8, 8, 192] gives the specification: pixel (b, r, c, f) has the row-major
    position of (b, r·8 + c, f). -/
theorem shapeCast_Gflat (x0 : (⟨4, ![4096, 8, 8, 192]⟩ : Shape).Idx → EReal)
    (x1 : (⟨2, ![192, 192]⟩ : Shape).Idx → EReal) (x2 : (⟨1, ![192]⟩ : Shape).Idx → EReal)
    (x3 : (⟨2, ![192, 192]⟩ : Shape).Idx → EReal) (x4 : (⟨1, ![192]⟩ : Shape).Idx → EReal)
    (x5 : (⟨2, ![192, 192]⟩ : Shape).Idx → EReal) (x6 : (⟨1, ![192]⟩ : Shape).Idx → EReal)
    (x7 : (⟨2, ![192, 192]⟩ : Shape).Idx → EReal) (x8 : (⟨1, ![192]⟩ : Shape).Idx → EReal)
    (x9 : (⟨3, ![1, 1, 1]⟩ : Shape).Idx → EReal)
    (h : (⟨3, ![4096, 64, 192]⟩ : Shape).ShapeCasts ⟨4, ![4096, 8, 8, 192]⟩) :
    shapeCast ⟨4, ![4096, 8, 8, 192]⟩ (Gflat x0 x1 x2 x3 x4 x5 x6 x7 x8 x9) h = G x0 x1 x2 x3 x4 x5 x6 x7 x8 x9 := by
  funext i
  obtain ⟨b, r, c, f, rfl⟩ : ∃ (b : Fin 4096) (r c : Fin 8) (f : Fin 192), i = ix4 b r c f :=
    ⟨i 0, i 1, i 2, i 3, eq_ix4 i⟩
  refine (shapeCast_apply _ h (ix4 b r c f) (ix3 b (pos r c) f) ?_).trans rfl
  rw [Shape.rowMajor_val_three, Shape.rowMajor_val_four]
  show (b.val * 64 + (r.val * 8 + c.val)) * 192 + f.val = ((b.val * 8 + r.val) * 8 + c.val) * 192 + f.val
  omega

end Cert.Spec

end
-- ==== Proof.IdealWhole.lean ====
/-
  The result array after the run, as one function of the arguments.

  What grid point t writes back is the body's arithmetic on the point's blocks. Read at (p, n, f) that is the per-image
  function of image t·64 + p at position n and channel f, over the arguments themselves: the image block's rows are
  x's rows of that image, the fused weight's three column windows are the three projection matrices, the fused bias's
  three windows the three biases. So point t writes back block t of the flat specification. The 64 blocks cover the
  [4096, 64, 192] array (row r is in block r / 64), so the array ends as the flat specification, and the last host
  line reshapes it to [4096, 8, 8, 192]: the specification.
-/
import proofs.«144008_j48438641164586_2_alg».proof.Proof.IdealBlocks
import proofs.«144008_j48438641164586_2_alg».proof.Proof.IdealTail
import proofs.«144008_j48438641164586_2_alg».proof.Proof.BlockValue
import proofs.«144008_j48438641164586_2_alg».proof.Proof.HostGlue
import proofs.«144008_j48438641164586_2_alg».proof.Proof.SpecFlat

set_option maxRecDepth 16384

noncomputable section

namespace Cert.KernelIdeal.Whole

open Cert.KernelIdeal Cert.KernelIdeal.Gen Cert.KernelIdeal.Around Cert.KernelIdeal.Operands Cert.KernelIdeal.Blocks
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- The flat specification over the arguments as launched. -/
abbrev GK (c : Dev nD) : S4096x64x192.Idx → EReal := Spec.Gflat (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- What point t writes back is block t of the flat specification. -/
theorem flushed_eq (c : Dev nD) (t : Fin cfg0.N) :
    (dats m 0 c).flushed 6 t = ((cfg0.win 6).blk t).view.read (Elt Ideal) (GK m c) := by
  show (cfg0.win 6).cut (grid0.coords t) ((dats m 0 c).after 6 t) = _
  rw [after_out]
  unfold outBlk
  rw [View.canon_unit_zero hz3]
  simp only [View.ld_unit_zero (S := S64x64x192) hz3, View.ld_unit_zero (S := S192x768) hz2, View.ld_unit_zero (S := S1x768) hz2,
    View.ld_unit_zero (S := S192x192) hz2, View.ld_unit_zero (S := S1x192) hz2, View.ld_unit_zero (S := S1x1) hz2]
  funext j
  obtain ⟨p, n, f, rfl⟩ : ∃ (p n : Fin 64) (f : Fin 192), j = ix3 p n f := ⟨j 0, j 1, j 2, eq_ix3 j⟩
  obtain ⟨-, -, -, -, -, -, -, -, -, -, -, -, -, e0, e1, e2⟩ := idx_facts t
  show k0_pay1 (F := Ideal) (k0_pay2 (iblk m c 0 t) (iblk m c 1 t) (iblk m c 2 t) (iblk m c 3 t)) (k0_pay3 (iblk m c 4 t)) (iblk m c 5 t) (iblk m c 0 t) (ix3 p n f)
    = GK m c (((cfg0.win 6).blk t).view.emb (ix3 p n f))
  have hemb : ((cfg0.win 6).blk t).view.emb (ix3 p n f) = ix3 (img t p) n f := by
    funext a; apply Fin.ext
    match a with
    | ⟨0, _⟩ => show win0_6.index t (0 : Fin 3) * 64 + 1 * p.val = t.val * 64 + p.val; rw [e0]; omega
    | ⟨1, _⟩ => show win0_6.index t (1 : Fin 3) * 64 + 1 * n.val = n.val; rw [e1]; omega
    | ⟨2, _⟩ => show win0_6.index t (2 : Fin 3) * 192 + 1 * f.val = f.val; rw [e2]; omega
  rw [hemb]
  refine (Blk.pay_apply (iblk m c 0 t) (iblk m c 1 t) (iblk m c 2 t) (iblk m c 3 t) (iblk m c 4 t) (iblk m c 5 t) p n f).trans ?_
  simp only [blk0_apply, blk1_apply, blk2_apply, blk3_apply, blk4_apply, blk5_apply]
  show _ = Spec.attn (fun n k => (m ((c : Thread nD τ).loc main_arg0)) (ix4 (img t p) (Spec.posH n) (Spec.posW n) k))
    (fun k f => (m ((c : Thread nD τ).loc main_arg1)) (ix2 k f)) (fun f => (m ((c : Thread nD τ).loc main_arg2)) (ix1 f)) (fun k f => (m ((c : Thread nD τ).loc main_arg3)) (ix2 k f)) (fun f => (m ((c : Thread nD τ).loc main_arg4)) (ix1 f))
    (fun k f => (m ((c : Thread nD τ).loc main_arg5)) (ix2 k f)) (fun f => (m ((c : Thread nD τ).loc main_arg6)) (ix1 f)) (fun k f => (m ((c : Thread nD τ).loc main_arg7)) (ix2 k f)) (fun f => (m ((c : Thread nD τ).loc main_arg8)) (ix1 f))
    ((m ((c : Thread nD τ).loc main_arg9)) (ix3 0 0 0)) n f
  have w0 : (fun (k f : Fin 192) => wqkv (m ((c : Thread nD τ).loc main_arg1)) (m ((c : Thread nD τ).loc main_arg3)) (m ((c : Thread nD τ).loc main_arg5)) (ix2 k ⟨f.val, Blk.lt_first f⟩)) = fun k f => (m ((c : Thread nD τ).loc main_arg1)) (ix2 k f) :=
    funext fun k => funext fun f => Glue.wqkv_apply0 _ _ _ k f
  have w1 : (fun (k f : Fin 192) => wqkv (m ((c : Thread nD τ).loc main_arg1)) (m ((c : Thread nD τ).loc main_arg3)) (m ((c : Thread nD τ).loc main_arg5)) (ix2 k ⟨256 + f.val, Blk.lt_second f⟩)) = fun k f => (m ((c : Thread nD τ).loc main_arg3)) (ix2 k f) :=
    funext fun k => funext fun f => Glue.wqkv_apply1 _ _ _ k f
  have w2 : (fun (k f : Fin 192) => wqkv (m ((c : Thread nD τ).loc main_arg1)) (m ((c : Thread nD τ).loc main_arg3)) (m ((c : Thread nD τ).loc main_arg5)) (ix2 k ⟨512 + f.val, Blk.lt_third f⟩)) = fun k f => (m ((c : Thread nD τ).loc main_arg5)) (ix2 k f) :=
    funext fun k => funext fun f => Glue.wqkv_apply2 _ _ _ k f
  have b0 : (fun (f : Fin 192) => bqkv (m ((c : Thread nD τ).loc main_arg2)) (m ((c : Thread nD τ).loc main_arg4)) (m ((c : Thread nD τ).loc main_arg6)) (ix2 0 ⟨f.val, Blk.lt_first f⟩)) = fun f => (m ((c : Thread nD τ).loc main_arg2)) (ix1 f) :=
    funext fun f => Glue.bqkv_apply0 _ _ _ f
  have b1 : (fun (f : Fin 192) => bqkv (m ((c : Thread nD τ).loc main_arg2)) (m ((c : Thread nD τ).loc main_arg4)) (m ((c : Thread nD τ).loc main_arg6)) (ix2 0 ⟨256 + f.val, Blk.lt_second f⟩)) = fun f => (m ((c : Thread nD τ).loc main_arg4)) (ix1 f) :=
    funext fun f => Glue.bqkv_apply1 _ _ _ f
  have b2 : (fun (f : Fin 192) => bqkv (m ((c : Thread nD τ).loc main_arg2)) (m ((c : Thread nD τ).loc main_arg4)) (m ((c : Thread nD τ).loc main_arg6)) (ix2 0 ⟨512 + f.val, Blk.lt_third f⟩)) = fun f => (m ((c : Thread nD τ).loc main_arg6)) (ix1 f) :=
    funext fun f => Glue.bqkv_apply2 _ _ _ f
  rw [w0, w1, w2, b0, b1, b2]

/-- An index is in point t's block iff each coordinate is in the block's range on its axis. -/
theorem mem_blk (t : Fin cfg0.N) (i : S4096x64x192.Idx) :
    i ∈ ((cfg0.win 6).blk t).view.set ↔ ∀ a : Fin 3, win0_6.index t a * S64x64x192.size a ≤ (i a).val ∧ (i a).val < win0_6.index t a * S64x64x192.size a + S64x64x192.size a := by
  show i ∈ ((View.whole main_v28).slice (win0_6.rect t)).set ↔ _
  rw [View.set_slice_whole, Rect.mem_set_unit]
  exact Iff.rfl

/-- Every index is in the block of the point its first coordinate names. -/
theorem cover (i : S4096x64x192.Idx) :
    ∃ t : Fin cfg0.N, (cfg0.win 6).flush t = true ∧ i ∈ ((cfg0.win 6).blk t).view.set := by
  have hi0 : (i 0).val < 4096 := (i 0).isLt
  have hi1 : (i 1).val < 64 := (i 1).isLt
  have hi2 : (i 2).val < 192 := (i 2).isLt
  refine ⟨⟨(i 0).val / 64, by show (i 0).val / 64 < 64; omega⟩, flush0_6 _, ?_⟩
  rw [mem_blk]
  obtain ⟨-, -, -, -, -, -, -, -, -, -, -, -, -, e0, e1, e2⟩ := idx_facts ⟨(i 0).val / 64, by show (i 0).val / 64 < 64; omega⟩
  intro a
  match a with
  | ⟨0, _⟩ => show win0_6.index _ (0 : Fin 3) * 64 ≤ (i 0).val ∧ (i 0).val < win0_6.index _ (0 : Fin 3) * 64 + 64; rw [e0]; show (i 0).val / 64 * 64 ≤ (i 0).val ∧ (i 0).val < (i 0).val / 64 * 64 + 64; omega
  | ⟨1, _⟩ => show win0_6.index _ (1 : Fin 3) * 64 ≤ (i 1).val ∧ (i 1).val < win0_6.index _ (1 : Fin 3) * 64 + 64; rw [e1]; omega
  | ⟨2, _⟩ => show win0_6.index _ (2 : Fin 3) * 192 ≤ (i 2).val ∧ (i 2).val < win0_6.index _ (2 : Fin 3) * 192 + 192; rw [e2]; omega

/-- The result array after the run is the flat specification. -/
theorem final (c : Dev nD) : (dats m 0 c).arrAt 6 cfg0.N = GK m c :=
  (dats m 0 c).arrAt_eq_of_cover 6 (GK m c) (fun t _ => flushed_eq m c t) (cover)

/-- The run: the reshaped result ends as the specification of the arguments, and the arguments end as given. -/
theorem run : θ_run defs (onTc (τ := τ) (main (F := Ideal))) ⟨m, fun _ => 0, ρ⟩ (fun r => ∀ c : Dev nD,
      r.2.mem ((c.tc : Thread nD τ).loc main_v29) = Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun r h c => ⟨((h c).2 main_v29 Tail.mem_rest_v29).trans ((Tail.tail_v29 m c).trans
        ((congrArg (fun X => shapeCast S4096x8x8x192 X shapeCasts_S4096x64x192_S4096x8x8x192) (final m c)).trans
          (Spec.shapeCast_Gflat _ _ _ _ _ _ _ _ _ _ _))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c)⟩)
    (run_main (F := Ideal) m ρ)

end Cert.KernelIdeal.Whole

end
-- ==== Proof.RefSpecA.lean ====
import proofs.«144008_j48438641164586_2_alg».proof.Proof.Gen.ReferenceIdeal.Read
import proofs.«144008_j48438641164586_2_alg».proof.Proof.Spec

noncomputable section

namespace Cert.ReferenceIdeal.RefSpec

open Cert.ReferenceIdeal Cert.ReferenceIdeal.Gen Cert.ReferenceIdeal.Read Idealize.ShloMosaic Idealize.ShloMosaic.ValueIdx

/-- A pixel's 1×1 convolution: Σ_k x(b,h,w,k) · W(k,f), plus the bias. -/
theorem v3_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (b : Fin 4096) (h w : Fin 8) (f : Fin 192) :
    val_main_v3 (F := Ideal) x0 x1 x2 (ix4 b h w f)
      = (∑ k : Fin 192, x0 (ix4 b h w k) * x1 (ix2 k f)) + x2 (ix1 f) := by
  rw [val_main_v3_apply, val_main_v0_apply, val_main_v2_apply, val_main_v1_apply]
  show (∑ k : Fin 192, x0 (lidx_main_v0 (ix4 b h w f) k) * x1 (ridx_main_v0 (ix4 b h w f) k)) + x2 _ = _
  have el : ∀ k : Fin 192, lidx_main_v0 (ix4 b h w f) k = ix4 b h w k := fun k => funext fun a => Fin.ext (by
    match a with | ⟨0, _⟩ => rfl | ⟨1, _⟩ => rfl | ⟨2, _⟩ => rfl | ⟨3, _⟩ => rfl)
  have er : ∀ k : Fin 192, ridx_main_v0 (ix4 b h w f) k = ix2 k f := fun k => funext fun a => Fin.ext (by
    match a with | ⟨0, _⟩ => rfl | ⟨1, _⟩ => rfl)
  have eb : idx_main_v1 (idx_main_v2 (ix4 b h w f)) = ix1 f := funext fun a => Fin.ext (by
    match a with | ⟨0, _⟩ => rfl)
  simp only [el, er, eb]

/-- A pixel's 1×1 convolution: Σ_k x(b,h,w,k) · W(k,f), plus the bias. -/
theorem v8_at (x0 : (⟨S4096x8x8x192, .f32⟩ : BufTy).Contents (Elt Ideal)) (x3 : (⟨S192x192, .f32⟩ : BufTy).Contents (Elt Ideal)) (x4 : (⟨S192, .f32⟩ : BufTy).Contents (Elt Ideal)) (b : Fin 4096) (h w : Fin 8) (f : Fin 192) :
    val_main_v8 (F := Ideal) x0 x3 x4 (ix4 b h w f)
      = (∑ k : Fin 192, x0 (ix4 b h w k) * x3 (ix2 k f)) + x4 (ix1 f) := by
  rw [val_main_v8_apply, val_main_v5_apply, val_main_v7_apply, val_main_v6_apply]
  show (∑ k : Fin 192, x0 (lidx_main_v5 (ix4 b h w f) k) * x3 (ridx_main_v5 (ix4 b h w f) k)) + x4 _ = _
  have el : ∀ k : Fin 192, lidx_main_v5 (ix4 b h w f) k = ix4 b h w k := fun k => funext fun a => Fin.ext (by
    match a with | ⟨0, _⟩ => rfl | ⟨1, _⟩ => rfl | ⟨2, _⟩ => rfl | ⟨3, _⟩ => rfl)
  have er : ∀ k : Fin 192, ridx_main_v5 (ix4 b h w f) k = ix2 k f := fun k => funext fun a => Fin.ext (by
    match a with | ⟨0, _⟩ => rfl | ⟨1, _⟩ => rfl)
  have eb : idx_main_v6 (idx_main_v7 (ix4 b h w f)) = ix1 f := funext fun a => Fin.ext (by
    match a with | ⟨0, _⟩ => rfl)
  simp only [el, er, eb]

/-- A pixel's 1×1 convolution: Σ_k x(b,h,w,k) · W(k,f), plus the bias. -/
theorem v26_at (x0 : (⟨S4096x8x8x192, .f32⟩ : BufTy).Contents (Elt Ideal)) (x5 : (⟨S192x192, .f32⟩ : BufTy).Contents (Elt Ideal)) (x6 : (⟨S192, .f32⟩ : BufTy).Contents (Elt Ideal)) (b : Fin 4096) (h w : Fin 8) (f : Fin 192) :
    val_main_v26 (F := Ideal) x0 x5 x6 (ix4 b h w f)
      = (∑ k : Fin 192, x0 (ix4 b h w k) * x5 (ix2 k f)) + x6 (ix1 f) := by
  rw [val_main_v26_apply, val_main_v23_apply, val_main_v25_apply, val_main_v24_apply]
  show (∑ k : Fin 192, x0 (lidx_main_v23 (ix4 b h w f) k) * x5 (ridx_main_v23 (ix4 b h w f) k)) + x6 _ = _
  have el : ∀ k : Fin 192, lidx_main_v23 (ix4 b h w f) k = ix4 b h w k := fun k => funext fun a => Fin.ext (by
    match a with | ⟨0, _⟩ => rfl | ⟨1, _⟩ => rfl | ⟨2, _⟩ => rfl | ⟨3, _⟩ => rfl)
  have er : ∀ k : Fin 192, ridx_main_v23 (ix4 b h w f) k = ix2 k f := fun k => funext fun a => Fin.ext (by
    match a with | ⟨0, _⟩ => rfl | ⟨1, _⟩ => rfl)
  have eb : idx_main_v24 (idx_main_v25 (ix4 b h w f)) = ix1 f := funext fun a => Fin.ext (by
    match a with | ⟨0, _⟩ => rfl)
  simp only [el, er, eb]

/-- The same after the 8×8 map is flattened to 64 positions: position n is pixel (n / 8, n % 8). -/
theorem v4_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (b : Fin 4096) (n : Fin 64) (f : Fin 192) :
    val_main_v4 (F := Ideal) x0 x1 x2 (ix3 b n f)
      = Cert.Spec.proj (fun n k => x0 (ix4 b (Cert.Spec.posH n) (Cert.Spec.posW n) k)) (fun k f => x1 (ix2 k f))
          (fun f => x2 (ix1 f)) n f := by
  rw [val_main_v4_apply]
  have e : idx_main_v4 (ix3 b n f) = ix4 b (Cert.Spec.posH n) (Cert.Spec.posW n) f := funext fun a => Fin.ext (by
    have hb := b.isLt; have hn := n.isLt; have hf := f.isLt
    match a with
    | ⟨0, _⟩ => show ((b.val * 64 + n.val) * 192 + f.val) / 12288 = b.val; omega
    | ⟨1, _⟩ => show ((b.val * 64 + n.val) * 192 + f.val) / 1536 % 8 = n.val / 8; omega
    | ⟨2, _⟩ => show ((b.val * 64 + n.val) * 192 + f.val) / 192 % 8 = n.val % 8; omega
    | ⟨3, _⟩ => show ((b.val * 64 + n.val) * 192 + f.val) % 192 = f.val; omega)
  rw [e, v3_at]
  rfl

/-- The same after the 8×8 map is flattened to 64 positions: position n is pixel (n / 8, n % 8). -/
theorem v27_at (x0 : (⟨S4096x8x8x192, .f32⟩ : BufTy).Contents (Elt Ideal)) (x5 : (⟨S192x192, .f32⟩ : BufTy).Contents (Elt Ideal)) (x6 : (⟨S192, .f32⟩ : BufTy).Contents (Elt Ideal)) (b : Fin 4096) (n : Fin 64) (f : Fin 192) :
    val_main_v27 (F := Ideal) x0 x5 x6 (ix3 b n f)
      = Cert.Spec.proj (fun n k => x0 (ix4 b (Cert.Spec.posH n) (Cert.Spec.posW n) k)) (fun k f => x5 (ix2 k f))
          (fun f => x6 (ix1 f)) n f := by
  rw [val_main_v27_apply]
  have e : idx_main_v27 (ix3 b n f) = ix4 b (Cert.Spec.posH n) (Cert.Spec.posW n) f := funext fun a => Fin.ext (by
    have hb := b.isLt; have hn := n.isLt; have hf := f.isLt
    match a with
    | ⟨0, _⟩ => show ((b.val * 64 + n.val) * 192 + f.val) / 12288 = b.val; omega
    | ⟨1, _⟩ => show ((b.val * 64 + n.val) * 192 + f.val) / 1536 % 8 = n.val / 8; omega
    | ⟨2, _⟩ => show ((b.val * 64 + n.val) * 192 + f.val) / 192 % 8 = n.val % 8; omega
    | ⟨3, _⟩ => show ((b.val * 64 + n.val) * 192 + f.val) % 192 = f.val; omega)
  rw [e, v26_at]
  rfl

/-- The second projection, transposed and flattened: entry (b, f, m) is the projection at position m, channel f. -/
theorem v10_at (x0 : (⟨S4096x8x8x192, .f32⟩ : BufTy).Contents (Elt Ideal)) (x3 : (⟨S192x192, .f32⟩ : BufTy).Contents (Elt Ideal)) (x4 : (⟨S192, .f32⟩ : BufTy).Contents (Elt Ideal)) (b : Fin 4096) (f : Fin 192) (m : Fin 64) :
    val_main_v10 (F := Ideal) x0 x3 x4 (ix3 b f m)
      = Cert.Spec.proj (fun n k => x0 (ix4 b (Cert.Spec.posH n) (Cert.Spec.posW n) k)) (fun k f => x3 (ix2 k f))
          (fun f => x4 (ix1 f)) m f := by
  rw [val_main_v10_apply, val_main_v9_apply]
  have e : idx_main_v9 (idx_main_v10 (ix3 b f m)) = ix4 b (Cert.Spec.posH m) (Cert.Spec.posW m) f := funext fun a => Fin.ext (by
    have hb := b.isLt; have hm := m.isLt; have hf := f.isLt
    match a with
    | ⟨0, _⟩ => show ((b.val * 192 + f.val) * 64 + m.val) / 12288 = b.val; omega
    | ⟨1, _⟩ => show ((b.val * 192 + f.val) * 64 + m.val) / 8 % 8 = m.val / 8; omega
    | ⟨2, _⟩ => show ((b.val * 192 + f.val) * 64 + m.val) % 8 = m.val % 8; omega
    | ⟨3, _⟩ => show ((b.val * 192 + f.val) * 64 + m.val) / 64 % 192 = f.val; omega)
  rw [e, v8_at]
  rfl

end Cert.ReferenceIdeal.RefSpec

end
-- ==== Proof.RefSpecB.lean ====
import proofs.«144008_j48438641164586_2_alg».proof.Proof.RefSpecA

noncomputable section

namespace Cert.ReferenceIdeal.RefSpec

open Cert.ReferenceIdeal Cert.ReferenceIdeal.Gen Cert.ReferenceIdeal.Read Idealize.ShloMosaic Idealize.ShloMosaic.ValueIdx

/-- The logits: entry (b, n, m) is Σ_f q(n, f) · g(m, f) of image b's two projections. -/
theorem v11_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n m : Fin 64) :
    val_main_v11 (F := Ideal) x0 x1 x2 x3 x4 (ix3 b n m) = (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n m := by
  rw [val_main_v11_apply]
  unfold Cert.Spec.logit
  refine Finset.sum_congr rfl fun k _ => ?_
  have el : lidx_main_v11 (ix3 b n m) k = ix3 b n k := funext fun a => Fin.ext (by
    match a with | ⟨0, _⟩ => rfl | ⟨1, _⟩ => rfl | ⟨2, _⟩ => rfl)
  have er : ridx_main_v11 (ix3 b n m) k = ix3 b k m := funext fun a => Fin.ext (by
    match a with | ⟨0, _⟩ => rfl | ⟨1, _⟩ => rfl | ⟨2, _⟩ => rfl)
  rw [el, er, v4_at, v10_at]

/-- The maximum over a row of the logits, from −∞. -/
theorem v12_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n : Fin 64) :
    val_main_v12 (F := Ideal) x0 x1 x2 x3 x4 (ix2 b n)
      = (Finset.univ : Finset (Fin 64)).fold max Cert.Spec.negInf (fun m => (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n m) := by
  unfold val_main_v12
  refine (Host.reduce_eq_fold_single (FloatOps.maximumf (F := Ideal) (φ := .f32)) _ _
    reducesTo_S4096x64x64_S4096x64_d2 (by decide) h_S_ (ix2 b n)).trans ?_
  refine congrArg ((Finset.univ : Finset (Fin 64)).fold max Cert.Spec.negInf) (funext fun m => ?_)
  show val_main_v11 (F := Ideal) x0 x1 x2 x3 x4 _ = _
  refine Eq.trans (congrArg (val_main_v11 (F := Ideal) x0 x1 x2 x3 x4) (?_ : _ = ix3 b n m)) (v11_at x0 x1 x2 x3 x4 b n m)
  exact funext fun a => Fin.ext (by match a with | ⟨0, _⟩ => rfl | ⟨1, _⟩ => rfl | ⟨2, _⟩ => rfl)

/-- The row maximum as the reference takes it: once more against −∞. -/
theorem v14_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n : Fin 64) :
    val_main_v14 (F := Ideal) x0 x1 x2 x3 x4 (ix2 b n) = Cert.Spec.rowMax (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n := by
  rw [val_main_v14_apply, v12_at, val_main_v13_apply]
  rfl

/-- The shifted exponentials. -/
theorem v18_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n m : Fin 64) :
    val_main_v18 (F := Ideal) x0 x1 x2 x3 x4 (ix3 b n m) = Cert.Spec.expo (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n m := by
  rw [val_main_v18_apply, val_main_v17_apply, val_main_v16_apply, val_main_v15_apply, v11_at]
  have e : idx_main_v15 (idx_main_v16 (ix3 b n m)) = ix2 b n := funext fun a => Fin.ext (by
    match a with | ⟨0, _⟩ => rfl | ⟨1, _⟩ => rfl)
  rw [e, v14_at]
  rfl

/-- A row's sum of exponentials. -/
theorem v19_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n : Fin 64) :
    val_main_v19 (F := Ideal) x0 x1 x2 x3 x4 (ix2 b n) = ∑ m' : Fin 64, Cert.Spec.expo (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n m' := by
  rw [val_main_v19_apply, val_main_cst_1_apply]
  show Ideal.ofBits .f32 0x00000000#32 + _ = _
  rw [Ideal.ofBits_zero_f32, zero_add]
  refine Finset.sum_congr rfl fun k _ => ?_
  have e : idx_main_v19 (ix2 b n) k = ix3 b n k := funext fun a => Fin.ext (by
    match a with | ⟨0, _⟩ => rfl | ⟨1, _⟩ => rfl | ⟨2, _⟩ => rfl)
  rw [e, v18_at]

/-- The softmax weights. -/
theorem v22_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (b : Fin 4096) (n m : Fin 64) :
    val_main_v22 (F := Ideal) x0 x1 x2 x3 x4 (ix3 b n m) = Cert.Spec.soft (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f)))) n m := by
  rw [val_main_v22_apply, val_main_v21_apply, val_main_v20_apply, v18_at]
  have e : idx_main_v20 (idx_main_v21 (ix3 b n m)) = ix2 b n := funext fun a => Fin.ext (by
    match a with | ⟨0, _⟩ => rfl | ⟨1, _⟩ => rfl)
  rw [e, v19_at]
  rfl

end Cert.ReferenceIdeal.RefSpec

end
-- ==== Proof.RefSpecC.lean ====
import proofs.«144008_j48438641164586_2_alg».proof.Proof.RefSpecB

noncomputable section

namespace Cert.ReferenceIdeal.RefSpec

open Cert.ReferenceIdeal Cert.ReferenceIdeal.Gen Cert.ReferenceIdeal.Read Idealize.ShloMosaic Idealize.ShloMosaic.ValueIdx

/-- The mixed rows: entry (b, n, f) is Σ_m p(n, m) · v(m, f). -/
theorem v28_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (x5 : (⟨S192x192, .f32⟩ : BufTy).Contents (Elt Ideal)) (x6 : (⟨S192, .f32⟩ : BufTy).Contents (Elt Ideal)) (b : Fin 4096) (n : Fin 64) (f : Fin 192) :
    val_main_v28 (F := Ideal) x0 x1 x2 x3 x4 x5 x6 (ix3 b n f) = (Cert.Spec.mix (Cert.Spec.soft (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f))))) (Cert.Spec.proj (fun n k => x0 (ix4 b (Cert.Spec.posH n) (Cert.Spec.posW n) k)) (fun k f => x5 (ix2 k f)) (fun f => x6 (ix1 f)))) n f := by
  rw [val_main_v28_apply]
  unfold Cert.Spec.mix
  refine Finset.sum_congr rfl fun k _ => ?_
  have el : lidx_main_v28 (ix3 b n f) k = ix3 b n k := funext fun a => Fin.ext (by
    match a with | ⟨0, _⟩ => rfl | ⟨1, _⟩ => rfl | ⟨2, _⟩ => rfl)
  have er : ridx_main_v28 (ix3 b n f) k = ix3 b k f := funext fun a => Fin.ext (by
    match a with | ⟨0, _⟩ => rfl | ⟨1, _⟩ => rfl | ⟨2, _⟩ => rfl)
  rw [el, er, v22_at, v27_at]

/-- The same back on the 8×8 map: pixel (h, w) is position h·8 + w. -/
theorem v29_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (x5 : (⟨S192x192, .f32⟩ : BufTy).Contents (Elt Ideal)) (x6 : (⟨S192, .f32⟩ : BufTy).Contents (Elt Ideal)) (b : Fin 4096) (h w : Fin 8) (f : Fin 192) :
    val_main_v29 (F := Ideal) x0 x1 x2 x3 x4 x5 x6 (ix4 b h w f) = (Cert.Spec.mix (Cert.Spec.soft (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f))))) (Cert.Spec.proj (fun n k => x0 (ix4 b (Cert.Spec.posH n) (Cert.Spec.posW n) k)) (fun k f => x5 (ix2 k f)) (fun f => x6 (ix1 f)))) (Cert.Spec.pos h w) f := by
  rw [val_main_v29_apply]
  have e : idx_main_v29 (ix4 b h w f) = ix3 b (Cert.Spec.pos h w) f := funext fun a => Fin.ext (by
    have hb := b.isLt; have hh := h.isLt; have hw := w.isLt; have hf := f.isLt
    match a with
    | ⟨0, _⟩ => show (((b.val * 8 + h.val) * 8 + w.val) * 192 + f.val) / 12288 = b.val; omega
    | ⟨1, _⟩ => show (((b.val * 8 + h.val) * 8 + w.val) * 192 + f.val) / 192 % 64 = h.val * 8 + w.val; omega
    | ⟨2, _⟩ => show (((b.val * 8 + h.val) * 8 + w.val) * 192 + f.val) % 192 = f.val; omega)
  rw [e, v28_at]

/-- The output projection and its bias. -/
theorem v33_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (x5 : (⟨S192x192, .f32⟩ : BufTy).Contents (Elt Ideal)) (x6 : (⟨S192, .f32⟩ : BufTy).Contents (Elt Ideal)) (x7 : (⟨S192x192, .f32⟩ : BufTy).Contents (Elt Ideal)) (x8 : (⟨S192, .f32⟩ : BufTy).Contents (Elt Ideal)) (b : Fin 4096) (h w : Fin 8) (f : Fin 192) :
    val_main_v33 (F := Ideal) x0 x1 x2 x3 x4 x5 x6 x7 x8 (ix4 b h w f)
      = (∑ k : Fin 192, (Cert.Spec.mix (Cert.Spec.soft (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f))))) (Cert.Spec.proj (fun n k => x0 (ix4 b (Cert.Spec.posH n) (Cert.Spec.posW n) k)) (fun k f => x5 (ix2 k f)) (fun f => x6 (ix1 f)))) (Cert.Spec.pos h w) k * x7 (ix2 k f)) + x8 (ix1 f) := by
  rw [val_main_v33_apply, val_main_v30_apply, val_main_v32_apply, val_main_v31_apply]
  show (∑ k : Fin 192, val_main_v29 (F := Ideal) x0 x1 x2 x3 x4 x5 x6 (lidx_main_v30 (ix4 b h w f) k)
      * x7 (ridx_main_v30 (ix4 b h w f) k)) + x8 _ = _
  have el : ∀ k : Fin 192, lidx_main_v30 (ix4 b h w f) k = ix4 b h w k := fun k => funext fun a => Fin.ext (by
    match a with | ⟨0, _⟩ => rfl | ⟨1, _⟩ => rfl | ⟨2, _⟩ => rfl | ⟨3, _⟩ => rfl)
  have er : ∀ k : Fin 192, ridx_main_v30 (ix4 b h w f) k = ix2 k f := fun k => funext fun a => Fin.ext (by
    match a with | ⟨0, _⟩ => rfl | ⟨1, _⟩ => rfl)
  have eb : idx_main_v31 (idx_main_v32 (ix4 b h w f)) = ix1 f := funext fun a => Fin.ext (by
    match a with | ⟨0, _⟩ => rfl)
  simp only [el, er, eb, v29_at]

/-- The result at a pixel: x + γ · (the projected mix plus its bias). -/
theorem v37_at (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (x5 : (⟨S192x192, .f32⟩ : BufTy).Contents (Elt Ideal)) (x6 : (⟨S192, .f32⟩ : BufTy).Contents (Elt Ideal)) (x7 : (⟨S192x192, .f32⟩ : BufTy).Contents (Elt Ideal)) (x8 : (⟨S192, .f32⟩ : BufTy).Contents (Elt Ideal)) (x9 : (⟨S1x1x1, .f32⟩ : BufTy).Contents (Elt Ideal)) (b : Fin 4096) (h w : Fin 8) (f : Fin 192) :
    val_main_v37 (F := Ideal) x0 x1 x2 x3 x4 x5 x6 x7 x8 x9 (ix4 b h w f)
      = x0 (ix4 b h w f) + x9 (ix3 0 0 0)
          * ((∑ k : Fin 192, (Cert.Spec.mix (Cert.Spec.soft (Cert.Spec.logit (Cert.Spec.proj (fun n k => x0 (ix4 b (Cert.Spec.posH n) (Cert.Spec.posW n) k)) (fun k f => x1 (ix2 k f)) (fun f => x2 (ix1 f))) (Cert.Spec.proj (fun n k => x0 (ix4 b (Cert.Spec.posH n) (Cert.Spec.posW n) k)) (fun k f => x3 (ix2 k f)) (fun f => x4 (ix1 f))))) (Cert.Spec.proj (fun n k => x0 (ix4 b (Cert.Spec.posH n) (Cert.Spec.posW n) k)) (fun k f => x5 (ix2 k f)) (fun f => x6 (ix1 f)))) (Cert.Spec.pos h w) k * x7 (ix2 k f)) + x8 (ix1 f)) := by
  rw [val_main_v37_apply, val_main_v36_apply, val_main_v35_apply, val_main_v34_apply, v33_at]
  have e : idx_main_v34 (idx_main_v35 (ix4 b h w f)) = ix3 0 0 0 := funext fun a => Fin.ext (by
    match a with | ⟨0, _⟩ => rfl | ⟨1, _⟩ => rfl | ⟨2, _⟩ => rfl)
  rw [e]
  rfl

end Cert.ReferenceIdeal.RefSpec

end
-- ==== Proof.RefSpec.lean ====
import proofs.«144008_j48438641164586_2_alg».proof.Proof.RefSpecC

noncomputable section

namespace Cert.ReferenceIdeal.RefSpec

open Cert.ReferenceIdeal Cert.ReferenceIdeal.Gen Cert.ReferenceIdeal.Read Idealize.ShloMosaic Idealize.ShloMosaic.ValueIdx

/-- The reference's result is the specification: at pixel (b, h, w) and channel f, image b's attention result at
    position h·8 + w. The position's pixel row and column are h and w again, which is all that separates the two. -/
theorem ref_eq (x0 : (⟨S4096x8x8x192, .f32⟩ : BufTy).Contents (Elt Ideal)) (x1 : (⟨S192x192, .f32⟩ : BufTy).Contents (Elt Ideal)) (x2 : (⟨S192, .f32⟩ : BufTy).Contents (Elt Ideal)) (x3 : (⟨S192x192, .f32⟩ : BufTy).Contents (Elt Ideal)) (x4 : (⟨S192, .f32⟩ : BufTy).Contents (Elt Ideal)) (x5 : (⟨S192x192, .f32⟩ : BufTy).Contents (Elt Ideal)) (x6 : (⟨S192, .f32⟩ : BufTy).Contents (Elt Ideal)) (x7 : (⟨S192x192, .f32⟩ : BufTy).Contents (Elt Ideal)) (x8 : (⟨S192, .f32⟩ : BufTy).Contents (Elt Ideal)) (x9 : (⟨S1x1x1, .f32⟩ : BufTy).Contents (Elt Ideal)) :
    Cert.ReferenceIdeal.Read.val_main_v37 (F := Ideal) x0 x1 x2 x3 x4 x5 x6 x7 x8 x9
      = Cert.Spec.G x0 x1 x2 x3 x4 x5 x6 x7 x8 x9 := by
  funext i
  obtain ⟨b, h, w, f, rfl⟩ : ∃ (b : Fin 4096) (h w : Fin 8) (f : Fin 192), i = ix4 b h w f :=
    ⟨i 0, i 1, i 2, i 3, eq_ix4 i⟩
  have hH : Cert.Spec.posH (Cert.Spec.pos h w) = h := Fin.ext (by
    have hh := h.isLt; have hw := w.isLt
    show (h.val * 8 + w.val) / 8 = h.val; omega)
  have hW : Cert.Spec.posW (Cert.Spec.pos h w) = w := Fin.ext (by
    have hh := h.isLt; have hw := w.isLt
    show (h.val * 8 + w.val) % 8 = w.val; omega)
  have key : x0 (ix4 b (Cert.Spec.posH (Cert.Spec.pos h w)) (Cert.Spec.posW (Cert.Spec.pos h w)) f)
      = x0 (ix4 b h w f) := by rw [hH, hW]
  rw [v37_at, ← key]
  rfl

end Cert.ReferenceIdeal.RefSpec

end
-- ==== Proof.lean ====
/-
  A self-attention block over [4096, 8, 8, 192] feature maps: the kernel against its plain reference, on the
  extended reals.

  Both programs compute, for each image of 64 positions by 192 channels, q = x·Wf + bf, g = x·Wg + bg, v = x·Wh + bh,
  the logits l(n, m) = Σ_f q(n, f)·g(m, f), the row softmax of l (each row shifted by its maximum, exponentiated,
  divided by the row's sum), the mix Σ_m softmax(n, m)·v(m, f), its image under Wo, bo, and x + γ·(that). The reference
  does this on the whole arrays. The kernel first builds, on the host, one fused [192, 768] weight holding the three
  projection matrices at columns 0, 256 and 512 of zero-padded blocks of 256 columns (and the fused bias row likewise),
  then runs over 64 grid points of 64 images each, computing the three projections by one product with the fused
  weight and reading them back through column windows that never meet the padding; a last host line reshapes the
  result. Changes of float format are the identity on the extended reals. No law of arithmetic is used beyond
  re-indexing: both sides perform the same operations in the same order on the same numbers, so no hypothesis on the
  inputs is needed, and the finiteness precondition is not opened.

  The parts: the specification (Proof/Spec, Proof/SpecFlat); the reference read stage by stage is the specification
  (Proof/RefSpec…); the kernel body's arithmetic on one grid point's blocks is the per-image function
  (Proof/Block…); the host-built operands read at an index (Proof/LibScatterSet, Proof/HostGlue, Proof/LibNary3,
  Proof/IdealOperands); the run around the launch, for either float interpretation (Proof/IdealAround,
  Proof/BitsAround); the blocks, the whole result array and the last reshape (Proof/IdealBlocks, Proof/IdealTail,
  Proof/IdealWhole).
-/
import proofs.«144008_j48438641164586_2_alg».proof.Defs
import proofs.«144008_j48438641164586_2_alg».proof.Proof.Gen.Kernel
import proofs.«144008_j48438641164586_2_alg».proof.Proof.Gen.KernelIdeal
import proofs.«144008_j48438641164586_2_alg».proof.Proof.Gen.ReferenceIdeal
import proofs.«144008_j48438641164586_2_alg».proof.Proof.Gen.ReferenceIdeal.Run
import proofs.«144008_j48438641164586_2_alg».proof.Proof.Gen.ReferenceIdeal.Read
import proofs.«144008_j48438641164586_2_alg».proof.Proof.Gen.Pre_finite_inputs
import proofs.«144008_j48438641164586_2_alg».proof.Proof.BitsAround
import proofs.«144008_j48438641164586_2_alg».proof.Proof.IdealWhole
import proofs.«144008_j48438641164586_2_alg».proof.Proof.RefSpec
import Idealize.ShloMosaic.Adequacy
import Idealize.ShloMosaic.Init

noncomputable section

namespace Cert.Proof

open Idealize.ShloMosaic Idealize.ShloMosaic.TcCoe Idealize.SL.Sem

/-- The kernel as printed runs to the end and leaves its arguments as given. -/
theorem frame_kernel : Cert.frame_Kernel (hKernel := Cert.Kernel.Gen.facts) (hPre_finite_inputs := Cert.Pre_finite_inputs.Gen.facts) :=
  fun m ρ _ => Cert.Kernel.Around.frame m ρ

/-- So does its reading on the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Around.frame m ρ

/-- The reference is host operations only: its run, with the result dropped. -/
theorem frame_reference : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- From memories that agree on the arguments both programs end with the specification of those arguments as their
    result: the kernel by the run around its launch, the reference by its run read stage by stage. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Spec.G (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Cert.ReferenceIdeal.RefSpec.ref_eq]
  obtain ⟨h0, h1, h2, h3, h4, h5, h6, h7, h8, h9⟩ := hagree c
  rw [h0, h1, h2, h3, h4, h5, h6, h7, h8, h9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
